-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v22)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v22) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v56) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x256x128x128 : Shape := ⟨4, ![16, 256, 128, 128]⟩
abbrev S256x1024 : Shape := ⟨2, ![256, 1024]⟩
abbrev S256 : Shape := ⟨1, ![256]⟩
abbrev S1024x256 : Shape := ⟨2, ![1024, 256]⟩
abbrev S1024 : Shape := ⟨1, ![1024]⟩
abbrev S_ : Shape := ⟨0, ![]⟩

class Facts : Prop where
  bcast_S_S16x256x128x128 : S_.BroadcastsInDim S16x256x128x128 (![] : Fin 0 → Fin S16x256x128x128.rank)
  reducesTo_S16x256x128x128_S_d0_1_2_3 : S16x256x128x128.ReducesTo [0, 1, 2, 3] S_
  h_S_ : 0 < S_.numel
  bcast_S_S256x1024 : S_.BroadcastsInDim S256x1024 (![] : Fin 0 → Fin S256x1024.rank)
  reducesTo_S256x1024_S_d0_1 : S256x1024.ReducesTo [0, 1] S_
  bcast_S_S256 : S_.BroadcastsInDim S256 (![] : Fin 0 → Fin S256.rank)
  reducesTo_S256_S_d0 : S256.ReducesTo [0] S_
  bcast_S_S1024x256 : S_.BroadcastsInDim S1024x256 (![] : Fin 0 → Fin S1024x256.rank)
  reducesTo_S1024x256_S_d0_1 : S1024x256.ReducesTo [0, 1] S_
  bcast_S_S1024 : S_.BroadcastsInDim S1024 (![] : Fin 0 → Fin S1024.rank)
  reducesTo_S1024_S_d0 : S1024.ReducesTo [0] S_

variable [Facts]

def fn_part1 {F : FTy → Type} [FloatOps F] (main_arg4 : FVec F S1024 .f32) (main_v13 : IVec S_ 1) (main_v16 : IVec S1024x256 1) : IVec S_ 1 :=
  let main_c_5 : IVec S_ 1 := constantI S_ 1 1#1
  let main_v17 : IVec S_ 1 := (fun x v => Host.reduce IntOp.andi x v reducesTo_S1024x256_S_d0_1 h_S_) main_v16 main_c_5
  let main_v18 : IVec S_ 1 := andi main_v13 main_v17
  let main_v19 : FVec F S1024 .f32 := Host.absf main_arg4
  let main_cst_6 : FVec F S_ .f32 := constant S_ .f32 0x7F800000#32
  let main_v20 : FVec F S1024 .f32 := broadcastInDim S1024 ![] bcast_S_S1024 main_cst_6
  let main_v21 : IVec S1024 1 := cmpf .olt main_v19 main_v20
  let main_c_7 : IVec S_ 1 := constantI S_ 1 1#1
  let main_v22 : IVec S_ 1 := (fun x v => Host.reduce IntOp.andi x v reducesTo_S1024_S_d0 h_S_) main_v21 main_c_7
  let main_v23 : IVec S_ 1 := andi main_v18 main_v22
  main_v23

def fn {F : FTy → Type} [FloatOps F] (main_arg0 : FVec F S16x256x128x128 .f32) (main_arg1 : FVec F S256x1024 .f32) (main_arg2 : FVec F S256 .f32) (main_arg3 : FVec F S1024x256 .f32) (main_arg4 : FVec F S1024 .f32) : IVec S_ 1 :=
  let main_v0 : FVec F S16x256x128x128 .f32 := Host.absf main_arg0
  let main_cst : FVec F S_ .f32 := constant S_ .f32 0x7F800000#32
  let main_v1 : FVec F S16x256x128x128 .f32 := broadcastInDim S16x256x128x128 ![] bcast_S_S16x256x128x128 main_cst
  let main_v2 : IVec S16x256x128x128 1 := cmpf .olt main_v0 main_v1
  let main_c : IVec S_ 1 := constantI S_ 1 1#1
  let main_v3 : IVec S_ 1 := (fun x v => Host.reduce IntOp.andi x v reducesTo_S16x256x128x128_S_d0_1_2_3 h_S_) main_v2 main_c
  let main_v4 : FVec F S256x1024 .f32 := Host.absf main_arg1
  let main_cst_0 : FVec F S_ .f32 := constant S_ .f32 0x7F800000#32
  let main_v5 : FVec F S256x1024 .f32 := broadcastInDim S256x1024 ![] bcast_S_S256x1024 main_cst_0
  let main_v6 : IVec S256x1024 1 := cmpf .olt main_v4 main_v5
  let main_c_1 : IVec S_ 1 := constantI S_ 1 1#1
  let main_v7 : IVec S_ 1 := (fun x v => Host.reduce IntOp.andi x v reducesTo_S256x1024_S_d0_1 h_S_) main_v6 main_c_1
  let main_v8 : IVec S_ 1 := andi main_v3 main_v7
  let main_v9 : FVec F S256 .f32 := Host.absf main_arg2
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S1024x256 .f32 := Host.absf main_arg3
  let main_cst_4 : FVec F S_ .f32 := constant S_ .f32 0x7F800000#32
  let main_v15 : FVec F S1024x256 .f32 := broadcastInDim S1024x256 ![] bcast_S_S1024x256 main_cst_4
  let main_v16 : IVec S1024x256 1 := cmpf .olt main_v14 main_v15
  fn_part1 (F := F) main_arg4 main_v13 main_v16
-- ==== Kernel.lean ====
abbrev S16x256x128x128 : Shape := ⟨4, ![16, 256, 128, 128]⟩
abbrev S256x1024 : Shape := ⟨2, ![256, 1024]⟩
abbrev S256 : Shape := ⟨1, ![256]⟩
abbrev S1024x256 : Shape := ⟨2, ![1024, 256]⟩
abbrev S1024 : Shape := ⟨1, ![1024]⟩
abbrev S16x4x256 : Shape := ⟨3, ![16, 4, 256]⟩
abbrev S1x128x128x128 : Shape := ⟨4, ![1, 128, 128, 128]⟩
abbrev S1x4x128 : Shape := ⟨3, ![1, 4, 128]⟩
abbrev S128x128 : Shape := ⟨2, ![128, 128]⟩
abbrev S1x128x64x128 : Shape := ⟨4, ![1, 128, 64, 128]⟩
abbrev S128x64x128 : Shape := ⟨3, ![128, 64, 128]⟩
abbrev S128 : Shape := ⟨1, ![128]⟩
abbrev S1x1x128 : Shape := ⟨3, ![1, 1, 128]⟩
abbrev S16x1024 : Shape := ⟨2, ![16, 1024]⟩
abbrev S16x256 : Shape := ⟨2, ![16, 256]⟩
abbrev S1x256 : Shape := ⟨2, ![1, 256]⟩
abbrev S_ : Shape := ⟨0, ![]⟩
abbrev S1x1024 : Shape := ⟨2, ![1, 1024]⟩
abbrev S4x128 : Shape := ⟨2, ![4, 128]⟩
abbrev S1x128 : Shape := ⟨2, ![1, 128]⟩
abbrev S128x1 : Shape := ⟨2, ![128, 1]⟩
abbrev S1x128x1x128 : Shape := ⟨4, ![1, 128, 1, 128]⟩

abbrev nBuf : Space → Nat
  | .hbm => 43
  | .vmem => 10
  | .smem => 0
  | _ => 0

abbrev bufTy : (tb : Table) → Fin (tcTables nBuf tb) → BufTy
  | .hbm, ⟨0, _⟩ => ⟨S16x256x128x128, .f32⟩
  | .hbm, ⟨1, _⟩ => ⟨S256x1024, .f32⟩
  | .hbm, ⟨2, _⟩ => ⟨S256, .f32⟩
  | .hbm, ⟨3, _⟩ => ⟨S1024x256, .f32⟩
  | .hbm, ⟨4, _⟩ => ⟨S1024, .f32⟩
  | .hbm, ⟨5, _⟩ => ⟨S16x4x256, .f32⟩
  | .hbm, ⟨6, _⟩ => ⟨S16x1024, .f32⟩
  | .hbm, ⟨7, _⟩ => ⟨S1024x256, .f32⟩
  | .hbm, ⟨8, _⟩ => ⟨S16x256, .f32⟩
  | .hbm, ⟨9, _⟩ => ⟨S1x256, .f32⟩
  | .hbm, ⟨10, _⟩ => ⟨S16x256, .f32⟩
  | .hbm, ⟨11, _⟩ => ⟨S16x256, .f32⟩
  | .hbm, ⟨12, _⟩ => ⟨S_, .f32⟩
  | .hbm, ⟨13, _⟩ => ⟨S16x256, .f32⟩
  | .hbm, ⟨14, _⟩ => ⟨S16x256, .f32⟩
  | .hbm, ⟨15, _⟩ => ⟨S16x256, .f32⟩
  | .hbm, ⟨16, _⟩ => ⟨S16x256, .f32⟩
  | .hbm, ⟨17, _⟩ => ⟨S16x256, .i1⟩
  | .hbm, ⟨18, _⟩ => ⟨S16x256, .f32⟩
  | .hbm, ⟨19, _⟩ => ⟨S16x256, .f32⟩
  | .hbm, ⟨20, _⟩ => ⟨S16x256, .f32⟩
  | .hbm, ⟨21, _⟩ => ⟨S16x256, .f32⟩
  | .hbm, ⟨22, _⟩ => ⟨S16x256, .f32⟩
  | .hbm, ⟨23, _⟩ => ⟨S16x256, .f32⟩
  | .hbm, ⟨24, _⟩ => ⟨S16x256, .f32⟩
  | .hbm, ⟨25, _⟩ => ⟨S16x256, .f32⟩
  | .hbm, ⟨26, _⟩ => ⟨S16x256, .f32⟩
  | .hbm, ⟨27, _⟩ => ⟨S16x256, .f32⟩
  | .hbm, ⟨28, _⟩ => ⟨S256x1024, .f32⟩
  | .hbm, ⟨29, _⟩ => ⟨S16x1024, .f32⟩
  | .hbm, ⟨30, _⟩ => ⟨S1x1024, .f32⟩
  | .hbm, ⟨31, _⟩ => ⟨S16x1024, .f32⟩
  | .hbm, ⟨32, _⟩ => ⟨S16x1024, .f32⟩
  | .hbm, ⟨33, _⟩ => ⟨S16x1024, .f32⟩
  | .hbm, ⟨34, _⟩ => ⟨S16x1024, .f32⟩
  | .hbm, ⟨35, _⟩ => ⟨S_, .f32⟩
  | .hbm, ⟨36, _⟩ => ⟨S16x1024, .f32⟩
  | .hbm, ⟨37, _⟩ => ⟨S16x1024, .f32⟩
  | .hbm, ⟨38, _⟩ => ⟨S_, .f32⟩
  | .hbm, ⟨39, _⟩ => ⟨S16x1024, .f32⟩
  | .hbm, ⟨40, _⟩ => ⟨S16x1024, .f32⟩
  | .hbm, ⟨41, _⟩ => ⟨S16x4x256, .f32⟩
  | .hbm, ⟨42, _⟩ => ⟨S16x256x128x128, .f32⟩
  | .local _ .vmem, ⟨0, _⟩ => ⟨S1x128x128x128, .f32⟩
  | .local _ .vmem, ⟨1, _⟩ => ⟨S1x128x128x128, .f32⟩
  | .local _ .vmem, ⟨2, _⟩ => ⟨S1x4x128, .f32⟩
  | .local _ .vmem, ⟨3, _⟩ => ⟨S1x4x128, .f32⟩
  | .local _ .vmem, ⟨4, _⟩ => ⟨S1x128x128x128, .f32⟩
  | .local _ .vmem, ⟨5, _⟩ => ⟨S1x128x128x128, .f32⟩
  | .local _ .vmem, ⟨6, _⟩ => ⟨S1x4x128, .f32⟩
  | .local _ .vmem, ⟨7, _⟩ => ⟨S1x4x128, .f32⟩
  | .local _ .vmem, ⟨8, _⟩ => ⟨S1x128x128x128, .f32⟩
  | .local _ .vmem, ⟨9, _⟩ => ⟨S1x128x128x128, .f32⟩
  | _, _ => ⟨S16x256x128x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_call0_cst : Ref sig .tc := ⟨.hbm, 12, rfl⟩
abbrev main_call0_v0 : Ref sig .tc := ⟨.hbm, 13, rfl⟩
abbrev main_call0_v1 : Ref sig .tc := ⟨.hbm, 14, rfl⟩
abbrev main_call0_v2 : Ref sig .tc := ⟨.hbm, 15, rfl⟩
abbrev main_call0_v3 : Ref sig .tc := ⟨.hbm, 16, rfl⟩
abbrev main_call0_v4 : Ref sig .tc := ⟨.hbm, 17, rfl⟩
abbrev main_call0_v5 : Ref sig .tc := ⟨.hbm, 18, rfl⟩
abbrev main_call0_v6 : Ref sig .tc := ⟨.hbm, 19, rfl⟩
abbrev main_call0_v7 : Ref sig .tc := ⟨.hbm, 20, rfl⟩
abbrev main_call0_v8 : Ref sig .tc := ⟨.hbm, 21, rfl⟩
abbrev main_call0_v9 : Ref sig .tc := ⟨.hbm, 22, rfl⟩
abbrev main_call0_v10 : Ref sig .tc := ⟨.hbm, 23, rfl⟩
abbrev main_call0_v11 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_cst : Ref sig .tc := ⟨.hbm, 35, rfl⟩
abbrev main_v17 : Ref sig .tc := ⟨.hbm, 36, rfl⟩
abbrev main_v18 : Ref sig .tc := ⟨.hbm, 37, rfl⟩
abbrev main_cst_0 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc1_stg0_0 : Ref sig .tc := ⟨.vmem, 4, rfl⟩
abbrev cc1_stg0_1 : Ref sig .tc := ⟨.vmem, 5, rfl⟩
abbrev cc1_stg1_0 : Ref sig .tc := ⟨.vmem, 6, rfl⟩
abbrev cc1_stg1_1 : Ref sig .tc := ⟨.vmem, 7, rfl⟩
abbrev cc1_stg2_0 : Ref sig .tc := ⟨.vmem, 8, rfl⟩
abbrev cc1_stg2_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc1_sem0_0 : DmaSem sig := 4
abbrev cc1_sem0_1 : DmaSem sig := 5
abbrev cc1_sem1_0 : DmaSem sig := 6
abbrev cc1_sem1_1 : DmaSem sig := 7
abbrev cc1_sem2_0 : DmaSem sig := 8
abbrev cc1_sem2_1 : DmaSem sig := 9

abbrev nD : Nat := 1
abbrev τ : Topo := Topo.v7x

variable {F : FTy → Type} [FloatOps F]

abbrev grid0 : Pipeline.Grid := ⟨2, ![16, 2], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x128x128x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x4x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev grid1 : Pipeline.Grid := ⟨2, ![16, 2], ![false, false]⟩

def cc1_transform_0 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc1_transform_2 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage1_0 : Fin 2 → Memref sig .tc .vmem S1x128x128x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x4x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S1x128x128x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

class Facts₀ : Prop where
  iota_S128x128_d1_w32 : S128x128.Iotas .tc 32 [1]
  natLt_1_32 : 1 < 32
  inb_S1x128x128x128_S1x128x64x128_0_0_0_0 : ∀ a, (![0, 0, 0, 0] : Fin 4 → Nat) a + S1x128x64x128.size a ≤ S1x128x128x128.size a
  h_S1x128x64x128 : 0 < S1x128x64x128.numel
  shapeCasts_S1x128x64x128_S128x64x128 : S1x128x64x128.ShapeCasts S128x64x128
  reduces_S128x64x128_S128x128 : S128x64x128.Reduces [1] S128x128
  inb_S1x128x128x128_S1x128x64x128_0_0_64_0 : ∀ a, (![0, 0, 64, 0] : Fin 4 → Nat) a + S1x128x64x128.size a ≤ S1x128x128x128.size a
  reduces_S128x128_S128 : S128x128.Reduces [1] S128
  inb_S1x4x128_S1x1x128_0_0_0 : ∀ a, (![0, 0, 0] : Fin 3 → Nat) a + S1x1x128.size a ≤ S1x4x128.size a
  h_S1x1x128 : 0 < S1x1x128.numel
  shapeCasts_S1x1x128_S128 : S1x1x128.ShapeCasts S128
  shapeCasts_S128_S1x1x128 : S128.ShapeCasts S1x1x128
  inb_S1x4x128_S1x1x128_0_1_0 : ∀ a, (![0, 1, 0] : Fin 3 → Nat) a + S1x1x128.size a ≤ S1x4x128.size a
  inb_S1x4x128_S1x1x128_0_2_0 : ∀ a, (![0, 2, 0] : Fin 3 → Nat) a + S1x1x128.size a ≤ S1x4x128.size a
  inb_S1x4x128_S1x1x128_0_3_0 : ∀ a, (![0, 3, 0] : Fin 3 → Nat) a + S1x1x128.size a ≤ S1x4x128.size a
  shapeCasts_S16x4x256_S16x1024 : S16x4x256.ShapeCasts S16x1024
  transposes_S256x1024_S1024x256_1_0 : S256x1024.Transposes [1, 0] S1024x256
  bcast_S256_S1x256_1 : S256.BroadcastsInDim S1x256 (![1] : Fin 1 → Fin S1x256.rank)
  bcast_S1x256_S16x256_0_1 : S1x256.BroadcastsInDim S16x256 (![0, 1] : Fin 2 → Fin S16x256.rank)
  bcast_S_S16x256 : S_.BroadcastsInDim S16x256 (![] : Fin 0 → Fin S16x256.rank)
  transposes_S1024x256_S256x1024_1_0 : S1024x256.Transposes [1, 0] S256x1024
  bcast_S1024_S1x1024_1 : S1024.BroadcastsInDim S1x1024 (![1] : Fin 1 → Fin S1x1024.rank)
  bcast_S1x1024_S16x1024_0_1 : S1x1024.BroadcastsInDim S16x1024 (![0, 1] : Fin 2 → Fin S16x1024.rank)
  bcast_S_S16x1024 : S_.BroadcastsInDim S16x1024 (![] : Fin 0 → Fin S16x1024.rank)
  shapeCasts_S16x1024_S16x4x256 : S16x1024.ShapeCasts S16x4x256
  inb_S1x4x128_S1x4x128_0_0_0 : ∀ a, (![0, 0, 0] : Fin 3 → Nat) a + S1x4x128.size a ≤ S1x4x128.size a
  h_S1x4x128 : 0 < S1x4x128.numel
  shapeCasts_S1x4x128_S4x128 : S1x4x128.ShapeCasts S4x128
  slices_S4x128_o0_0_S1x128 : S4x128.Slices ![0, 0] S1x128
  shapeCasts_S1x128_S128 : S1x128.ShapeCasts S128
  shapeCasts_S128_S128x1 : S128.ShapeCasts S128x1
  slices_S4x128_o1_0_S1x128 : S4x128.Slices ![1, 0] S1x128
  shapeCasts_S128x1_S128x1 : S128x1.ShapeCasts S128x1
  broadcasts_S128x1_S128x128 : S128x1.Broadcasts S128x128
  slices_S4x128_o2_0_S1x128 : S4x128.Slices ![2, 0] S1x128
  slices_S4x128_o3_0_S1x128 : S4x128.Slices ![3, 0] S1x128
  shapeCasts_S128x128_S1x128x1x128 : S128x128.ShapeCasts S1x128x1x128
  broadcasts_S1x128x1x128_S1x128x64x128 : S1x128x1x128.Broadcasts S1x128x64x128
  dot_S16x1024_S1024x256_S16x256_1_0_0_1_n_n_wf : DotDims.WF S16x1024 S1024x256 S16x256 [1] [0] [0] [1] [] []
  dot_S16x256_S256x1024_S16x1024_1_0_0_1_n_n_wf : DotDims.WF S16x256 S256x1024 S16x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x128x128x128.size a ≤ S16x256x128x128.size a
  hwx0_0 : ∀ i : grid0.Coords, EltTy.bits .f32 = 32 ∨ (Rect.block (s := S16x256x128x128) S1x128x128x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x4x128.size a ≤ S16x4x256.size a
  hwx0_1 : ∀ i : grid0.Coords, EltTy.bits .f32 = 32 ∨ (Rect.block (s := S16x4x256) S1x4x128.size (cc0_transform_1 i) (hinb0_1 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x128x128x128.size a ≤ S16x256x128x128.size a
  hwx1_0 : ∀ i : grid1.Coords, EltTy.bits .f32 = 32 ∨ (Rect.block (s := S16x256x128x128) S1x128x128x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x4x128.size a ≤ S16x4x256.size a
  hwx1_1 : ∀ i : grid1.Coords, EltTy.bits .f32 = 32 ∨ (Rect.block (s := S16x4x256) S1x4x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x128x128x128.size a ≤ S16x256x128x128.size a
  hwx1_2 : ∀ i : grid1.Coords, EltTy.bits .f32 = 32 ∨ (Rect.block (s := S16x256x128x128) S1x128x128x128.size (cc1_transform_2 i) (hinb1_2 i)).WholeWords (EltTy.packing .f32)

variable [Facts₀]

def dot_S16x1024_S1024x256_S16x256_1_0_0_1_n_n : DotDims S16x1024 S1024x256 S16x256 where
  lhsContracting := [1]
  rhsContracting := [0]
  lhsNonContracting := [0]
  rhsNonContracting := [1]
  lhsBatch := []
  rhsBatch := []
  wf := dot_S16x1024_S1024x256_S16x256_1_0_0_1_n_n_wf
def dot_S16x256_S256x1024_S16x1024_1_0_0_1_n_n : DotDims S16x256 S256x1024 S16x1024 where
  lhsContracting := [1]
  rhsContracting := [0]
  lhsNonContracting := [0]
  rhsNonContracting := [1]
  lhsBatch := []
  rhsBatch := []
  wf := dot_S16x256_S256x1024_S16x1024_1_0_0_1_n_n_wf

abbrev win0_0 : Pipeline.Window sig grid0 :=
  Pipeline.Window.ofSpec (Memref.whole main_arg0) S1x128x128x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x4x128.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev win1_0 : Pipeline.Window sig grid1 :=
  Pipeline.Window.ofSpec (Memref.whole main_arg0) S1x128x128x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v21) S1x4x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v22) S1x128x128x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where
  halias1_2 : Pipeline.Aliased win1 0 2

variable [Facts]
-- ==== ReferenceIdeal.lean ====
abbrev S16x256x128x128 : Shape := ⟨4, ![16, 256, 128, 128]⟩
abbrev S256x1024 : Shape := ⟨2, ![256, 1024]⟩
abbrev S256 : Shape := ⟨1, ![256]⟩
abbrev S1024x256 : Shape := ⟨2, ![1024, 256]⟩
abbrev S1024 : Shape := ⟨1, ![1024]⟩
abbrev S16x256x64x64 : Shape := ⟨4, ![16, 256, 64, 64]⟩
abbrev S_ : Shape := ⟨0, ![]⟩
abbrev S16x256 : Shape := ⟨2, ![16, 256]⟩
abbrev S16x1024 : Shape := ⟨2, ![16, 1024]⟩
abbrev S1x256 : Shape := ⟨2, ![1, 256]⟩
abbrev S1x1024 : Shape := ⟨2, ![1, 1024]⟩
abbrev S16x4x256 : Shape := ⟨3, ![16, 4, 256]⟩
abbrev S16x4x256x1x1 : Shape := ⟨5, ![16, 4, 256, 1, 1]⟩
abbrev S16x1x256x1x1 : Shape := ⟨5, ![16, 1, 256, 1, 1]⟩
abbrev S16x256x1x1 : Shape := ⟨4, ![16, 256, 1, 1]⟩
abbrev S16x256x64x128 : Shape := ⟨4, ![16, 256, 64, 128]⟩

abbrev nBuf : Space → Nat
  | .hbm => 85
  | .vmem => 0
  | .smem => 0
  | _ => 0

abbrev bufTy : (tb : Table) → Fin (tcTables nBuf tb) → BufTy
  | .hbm, ⟨0, _⟩ => ⟨S16x256x128x128, .f32⟩
  | .hbm, ⟨1, _⟩ => ⟨S256x1024, .f32⟩
  | .hbm, ⟨2, _⟩ => ⟨S256, .f32⟩
  | .hbm, ⟨3, _⟩ => ⟨S1024x256, .f32⟩
  | .hbm, ⟨4, _⟩ => ⟨S1024, .f32⟩
  | .hbm, ⟨5, _⟩ => ⟨S16x256x64x64, .f32⟩
  | .hbm, ⟨6, _⟩ => ⟨S16x256x64x64, .f32⟩
  | .hbm, ⟨7, _⟩ => ⟨S16x256x64x64, .f32⟩
  | .hbm, ⟨8, _⟩ => ⟨S16x256x64x64, .f32⟩
  | .hbm, ⟨9, _⟩ => ⟨S_, .f32⟩
  | .hbm, ⟨10, _⟩ => ⟨S16x256, .f32⟩
  | .hbm, ⟨11, _⟩ => ⟨S_, .f32⟩
  | .hbm, ⟨12, _⟩ => ⟨S16x256, .f32⟩
  | .hbm, ⟨13, _⟩ => ⟨S16x256, .f32⟩
  | .hbm, ⟨14, _⟩ => ⟨S_, .f32⟩
  | .hbm, ⟨15, _⟩ => ⟨S16x256, .f32⟩
  | .hbm, ⟨16, _⟩ => ⟨S_, .f32⟩
  | .hbm, ⟨17, _⟩ => ⟨S16x256, .f32⟩
  | .hbm, ⟨18, _⟩ => ⟨S16x256, .f32⟩
  | .hbm, ⟨19, _⟩ => ⟨S_, .f32⟩
  | .hbm, ⟨20, _⟩ => ⟨S16x256, .f32⟩
  | .hbm, ⟨21, _⟩ => ⟨S_, .f32⟩
  | .hbm, ⟨22, _⟩ => ⟨S16x256, .f32⟩
  | .hbm, ⟨23, _⟩ => ⟨S16x256, .f32⟩
  | .hbm, ⟨24, _⟩ => ⟨S_, .f32⟩
  | .hbm, ⟨25, _⟩ => ⟨S16x256, .f32⟩
  | .hbm, ⟨26, _⟩ => ⟨S_, .f32⟩
  | .hbm, ⟨27, _⟩ => ⟨S16x256, .f32⟩
  | .hbm, ⟨28, _⟩ => ⟨S16x256, .f32⟩
  | .hbm, ⟨29, _⟩ => ⟨S16x1024, .f32⟩
  | .hbm, ⟨30, _⟩ => ⟨S1024x256, .f32⟩
  | .hbm, ⟨31, _⟩ => ⟨S16x256, .f32⟩
  | .hbm, ⟨32, _⟩ => ⟨S1x256, .f32⟩
  | .hbm, ⟨33, _⟩ => ⟨S16x256, .f32⟩
  | .hbm, ⟨34, _⟩ => ⟨S16x256, .f32⟩
  | .hbm, ⟨35, _⟩ => ⟨S_, .f32⟩
  | .hbm, ⟨36, _⟩ => ⟨S16x256, .f32⟩
  | .hbm, ⟨37, _⟩ => ⟨S16x256, .f32⟩
  | .hbm, ⟨38, _⟩ => ⟨S16x256, .f32⟩
  | .hbm, ⟨39, _⟩ => ⟨S16x256, .f32⟩
  | .hbm, ⟨40, _⟩ => ⟨S16x256, .i1⟩
  | .hbm, ⟨41, _⟩ => ⟨S16x256, .f32⟩
  | .hbm, ⟨42, _⟩ => ⟨S16x256, .f32⟩
  | .hbm, ⟨43, _⟩ => ⟨S16x256, .f32⟩
  | .hbm, ⟨44, _⟩ => ⟨S16x256, .f32⟩
  | .hbm, ⟨45, _⟩ => ⟨S16x256, .f32⟩
  | .hbm, ⟨46, _⟩ => ⟨S16x256, .f32⟩
  | .hbm, ⟨47, _⟩ => ⟨S16x256, .f32⟩
  | .hbm, ⟨48, _⟩ => ⟨S16x256, .f32⟩
  | .hbm, ⟨49, _⟩ => ⟨S16x256, .f32⟩
  | .hbm, ⟨50, _⟩ => ⟨S16x256, .f32⟩
  | .hbm, ⟨51, _⟩ => ⟨S256x1024, .f32⟩
  | .hbm, ⟨52, _⟩ => ⟨S16x1024, .f32⟩
  | .hbm, ⟨53, _⟩ => ⟨S1x1024, .f32⟩
  | .hbm, ⟨54, _⟩ => ⟨S16x1024, .f32⟩
  | .hbm, ⟨55, _⟩ => ⟨S16x1024, .f32⟩
  | .hbm, ⟨56, _⟩ => ⟨S16x1024, .f32⟩
  | .hbm, ⟨57, _⟩ => ⟨S16x1024, .f32⟩
  | .hbm, ⟨58, _⟩ => ⟨S_, .f32⟩
  | .hbm, ⟨59, _⟩ => ⟨S16x1024, .f32⟩
  | .hbm, ⟨60, _⟩ => ⟨S16x1024, .f32⟩
  | .hbm, ⟨61, _⟩ => ⟨S_, .f32⟩
  | .hbm, ⟨62, _⟩ => ⟨S16x1024, .f32⟩
  | .hbm, ⟨63, _⟩ => ⟨S16x1024, .f32⟩
  | .hbm, ⟨64, _⟩ => ⟨S16x4x256, .f32⟩
  | .hbm, ⟨65, _⟩ => ⟨S16x4x256x1x1, .f32⟩
  | .hbm, ⟨66, _⟩ => ⟨S16x1x256x1x1, .f32⟩
  | .hbm, ⟨67, _⟩ => ⟨S16x256x1x1, .f32⟩
  | .hbm, ⟨68, _⟩ => ⟨S16x256x64x64, .f32⟩
  | .hbm, ⟨69, _⟩ => ⟨S16x256x64x64, .f32⟩
  | .hbm, ⟨70, _⟩ => ⟨S16x1x256x1x1, .f32⟩
  | .hbm, ⟨71, _⟩ => ⟨S16x256x1x1, .f32⟩
  | .hbm, ⟨72, _⟩ => ⟨S16x256x64x64, .f32⟩
  | .hbm, ⟨73, _⟩ => ⟨S16x256x64x64, .f32⟩
  | .hbm, ⟨74, _⟩ => ⟨S16x256x64x128, .f32⟩
  | .hbm, ⟨75, _⟩ => ⟨S16x1x256x1x1, .f32⟩
  | .hbm, ⟨76, _⟩ => ⟨S16x256x1x1, .f32⟩
  | .hbm, ⟨77, _⟩ => ⟨S16x256x64x64, .f32⟩
  | .hbm, ⟨78, _⟩ => ⟨S16x256x64x64, .f32⟩
  | .hbm, ⟨79, _⟩ => ⟨S16x1x256x1x1, .f32⟩
  | .hbm, ⟨80, _⟩ => ⟨S16x256x1x1, .f32⟩
  | .hbm, ⟨81, _⟩ => ⟨S16x256x64x64, .f32⟩
  | .hbm, ⟨82, _⟩ => ⟨S16x256x64x64, .f32⟩
  | .hbm, ⟨83, _⟩ => ⟨S16x256x64x128, .f32⟩
  | .hbm, ⟨84, _⟩ => ⟨S16x256x128x128, .f32⟩
  | _, _ => ⟨S16x256x128x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_cst_2 : Ref sig .tc := ⟨.hbm, 16, rfl⟩
abbrev main_v8 : Ref sig .tc := ⟨.hbm, 17, rfl⟩
abbrev main_v9 : Ref sig .tc := ⟨.hbm, 18, rfl⟩
abbrev main_cst_3 : Ref sig .tc := ⟨.hbm, 19, rfl⟩
abbrev main_v10 : Ref sig .tc := ⟨.hbm, 20, rfl⟩
abbrev main_cst_4 : Ref sig .tc := ⟨.hbm, 21, rfl⟩
abbrev main_v11 : Ref sig .tc := ⟨.hbm, 22, rfl⟩
abbrev main_v12 : Ref sig .tc := ⟨.hbm, 23, rfl⟩
abbrev main_cst_5 : Ref sig .tc := ⟨.hbm, 24, rfl⟩
abbrev main_v13 : Ref sig .tc := ⟨.hbm, 25, rfl⟩
abbrev main_cst_6 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_call0_cst : Ref sig .tc := ⟨.hbm, 35, rfl⟩
abbrev main_call0_v0 : Ref sig .tc := ⟨.hbm, 36, rfl⟩
abbrev main_call0_v1 : Ref sig .tc := ⟨.hbm, 37, rfl⟩
abbrev main_call0_v2 : Ref sig .tc := ⟨.hbm, 38, rfl⟩
abbrev main_call0_v3 : Ref sig .tc := ⟨.hbm, 39, rfl⟩
abbrev main_call0_v4 : Ref sig .tc := ⟨.hbm, 40, rfl⟩
abbrev main_call0_v5 : Ref sig .tc := ⟨.hbm, 41, rfl⟩
abbrev main_call0_v6 : Ref sig .tc := ⟨.hbm, 42, rfl⟩
abbrev main_call0_v7 : Ref sig .tc := ⟨.hbm, 43, rfl⟩
abbrev main_call0_v8 : Ref sig .tc := ⟨.hbm, 44, rfl⟩
abbrev main_call0_v9 : Ref sig .tc := ⟨.hbm, 45, rfl⟩
abbrev main_call0_v10 : Ref sig .tc := ⟨.hbm, 46, rfl⟩
abbrev main_call0_v11 : Ref sig .tc := ⟨.hbm, 47, rfl⟩
abbrev main_v22 : Ref sig .tc := ⟨.hbm, 48, rfl⟩
abbrev main_v23 : Ref sig .tc := ⟨.hbm, 49, rfl⟩
abbrev main_v24 : Ref sig .tc := ⟨.hbm, 50, rfl⟩
abbrev main_v25 : Ref sig .tc := ⟨.hbm, 51, rfl⟩
abbrev main_v26 : Ref sig .tc := ⟨.hbm, 52, rfl⟩
abbrev main_v27 : Ref sig .tc := ⟨.hbm, 53, rfl⟩
abbrev main_v28 : Ref sig .tc := ⟨.hbm, 54, rfl⟩
abbrev main_v29 : Ref sig .tc := ⟨.hbm, 55, rfl⟩
abbrev main_v30 : Ref sig .tc := ⟨.hbm, 56, rfl⟩
abbrev main_v31 : Ref sig .tc := ⟨.hbm, 57, rfl⟩
abbrev main_cst_7 : Ref sig .tc := ⟨.hbm, 58, rfl⟩
abbrev main_v32 : Ref sig .tc := ⟨.hbm, 59, rfl⟩
abbrev main_v33 : Ref sig .tc := ⟨.hbm, 60, rfl⟩
abbrev main_cst_8 : Ref sig .tc := ⟨.hbm, 61, rfl⟩
abbrev main_v34 : Ref sig .tc := ⟨.hbm, 62, rfl⟩
abbrev main_v35 : Ref sig .tc := ⟨.hbm, 63, rfl⟩
abbrev main_v36 : Ref sig .tc := ⟨.hbm, 64, rfl⟩
abbrev main_v37 : Ref sig .tc := ⟨.hbm, 65, rfl⟩
abbrev main_v38 : Ref sig .tc := ⟨.hbm, 66, rfl⟩
abbrev main_v39 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩

abbrev nD : Nat := 1
abbrev τ : Topo := Topo.v7x

variable {F : FTy → Type} [FloatOps F]

class Facts₀ : Prop where
  slices_S16x256x128x128_S16x256x64x64_0_0_0_0 : S16x256x128x128.Slices ![0, 0, 0, 0] S16x256x64x64
  slices_S16x256x128x128_S16x256x64x64_0_0_0_64 : S16x256x128x128.Slices ![0, 0, 0, 64] S16x256x64x64
  slices_S16x256x128x128_S16x256x64x64_0_0_64_0 : S16x256x128x128.Slices ![0, 0, 64, 0] S16x256x64x64
  slices_S16x256x128x128_S16x256x64x64_0_0_64_64 : S16x256x128x128.Slices ![0, 0, 64, 64] S16x256x64x64
  reducesTo_S16x256x64x64_S16x256_d2_3 : S16x256x64x64.ReducesTo [2, 3] S16x256
  h_S_ : 0 < S_.numel
  bcast_S_S16x256 : S_.BroadcastsInDim S16x256 (![] : Fin 0 → Fin S16x256.rank)
  concatenates_S16x256_S16x256_S16x256_S16x256_S16x1024_d1 : Shape.Concatenates [S16x256, S16x256, S16x256, S16x256] S16x1024 1
  transposes_S256x1024_S1024x256_1_0 : S256x1024.Transposes [1, 0] S1024x256
  bcast_S256_S1x256_1 : S256.BroadcastsInDim S1x256 (![1] : Fin 1 → Fin S1x256.rank)
  bcast_S1x256_S16x256_0_1 : S1x256.BroadcastsInDim S16x256 (![0, 1] : Fin 2 → Fin S16x256.rank)
  transposes_S1024x256_S256x1024_1_0 : S1024x256.Transposes [1, 0] S256x1024
  bcast_S1024_S1x1024_1 : S1024.BroadcastsInDim S1x1024 (![1] : Fin 1 → Fin S1x1024.rank)
  bcast_S1x1024_S16x1024_0_1 : S1x1024.BroadcastsInDim S16x1024 (![0, 1] : Fin 2 → Fin S16x1024.rank)
  bcast_S_S16x1024 : S_.BroadcastsInDim S16x1024 (![] : Fin 0 → Fin S16x1024.rank)
  shapeCasts_S16x1024_S16x4x256 : S16x1024.ShapeCasts S16x4x256
  bcast_S16x4x256_S16x4x256x1x1_0_1_2 : S16x4x256.BroadcastsInDim S16x4x256x1x1 (![0, 1, 2] : Fin 3 → Fin S16x4x256x1x1.rank)
  slices_S16x4x256x1x1_S16x1x256x1x1_0_0_0_0_0 : S16x4x256x1x1.Slices ![0, 0, 0, 0, 0] S16x1x256x1x1
  shapeCasts_S16x1x256x1x1_S16x256x1x1 : S16x1x256x1x1.ShapeCasts S16x256x1x1
  bcast_S16x256x1x1_S16x256x64x64_0_1_2_3 : S16x256x1x1.BroadcastsInDim S16x256x64x64 (![0, 1, 2, 3] : Fin 4 → Fin S16x256x64x64.rank)
  slices_S16x4x256x1x1_S16x1x256x1x1_0_1_0_0_0 : S16x4x256x1x1.Slices ![0, 1, 0, 0, 0] S16x1x256x1x1
  concatenates_S16x256x64x64_S16x256x64x64_S16x256x64x128_d3 : Shape.Concatenates [S16x256x64x64, S16x256x64x64] S16x256x64x128 3
  slices_S16x4x256x1x1_S16x1x256x1x1_0_2_0_0_0 : S16x4x256x1x1.Slices ![0, 2, 0, 0, 0] S16x1x256x1x1
  slices_S16x4x256x1x1_S16x1x256x1x1_0_3_0_0_0 : S16x4x256x1x1.Slices ![0, 3, 0, 0, 0] S16x1x256x1x1
  concatenates_S16x256x64x128_S16x256x64x128_S16x256x128x128_d2 : Shape.Concatenates [S16x256x64x128, S16x256x64x128] S16x256x128x128 2
  dot_S16x1024_S1024x256_S16x256_1_0_0_1_n_n_wf : DotDims.WF S16x1024 S1024x256 S16x256 [1] [0] [0] [1] [] []
  dot_S16x256_S256x1024_S16x1024_1_0_0_1_n_n_wf : DotDims.WF S16x256 S256x1024 S16x1024 [1] [0] [0] [1] [] []

variable [Facts₀]

def dot_S16x1024_S1024x256_S16x256_1_0_0_1_n_n : DotDims S16x1024 S1024x256 S16x256 where
  lhsContracting := [1]
  rhsContracting := [0]
  lhsNonContracting := [0]
  rhsNonContracting := [1]
  lhsBatch := []
  rhsBatch := []
  wf := dot_S16x1024_S1024x256_S16x256_1_0_0_1_n_n_wf
def dot_S16x256_S256x1024_S16x1024_1_0_0_1_n_n : DotDims S16x256 S256x1024 S16x1024 where
  lhsContracting := [1]
  rhsContracting := [0]
  lhsNonContracting := [0]
  rhsNonContracting := [1]
  lhsBatch := []
  rhsBatch := []
  wf := dot_S16x256_S256x1024_S16x1024_1_0_0_1_n_n_wf

class Facts : Prop extends Facts₀ where

variable [Facts]
-- ==== Proof.Spec.lean ====
/-
  The mathematics shared by the two programs, stated once over the argument arrays.

  The input `t` is a batch of 16 images with 256 channels and 128×128 planes.  Each plane is cut at its middle row and
  middle column into four 64×64 quadrants, numbered 2·(lower half) + (right half).  The quadrant mean of (b, q, c) is the
  average of the 4096 entries of quadrant q of plane (b, c); the 16 × 1024 matrix of means has (b, 256·q + c) for its
  entry.  Two small dense layers turn that matrix into a matrix of gates of the same shape (`glue`: an affine layer, the
  activation x·tanh(softplus x), a second affine layer, the logistic function); the result multiplies every entry of
  `t` by the gate of its own batch, quadrant and channel.
-/
import proofs.«138559_j55224689492532_2_alg».proof.KernelIdeal
import proofs.«138559_j55224689492532_2_alg».proof.Proof.Gen.KernelIdeal
import Idealize.ShloMosaic.PureOps.Ideal
import Idealize.ShloMosaic.Lib.ValueIdx

noncomputable section

namespace Cert.QuadGate

open Idealize.ShloMosaic Cert.KernelIdeal Cert.KernelIdeal.Gen

/-- The index (b, c, h, w) of the input array, from its four coordinates as numbers. -/
def tIdx (b c h w : Nat) (hb : b < 16) (hc : c < 256) (hh : h < 128) (hw : w < 128) : S16x256x128x128.Idx := fun a => match a with
  | ⟨0, _⟩ => ⟨b, hb⟩
  | ⟨1, _⟩ => ⟨c, hc⟩
  | ⟨2, _⟩ => ⟨h, hh⟩
  | ⟨3, _⟩ => ⟨w, hw⟩

/-- The mean of quadrant `k / 256` of plane (b, `k % 256`) of a real array: the sum of its 64 × 64 entries, over 4096.
    Quadrant q starts at row 64·(q / 2) and column 64·(q % 2). -/
def quadMean (tr : S16x256x128x128.Idx → ℝ) (b : Fin 16) (k : Fin 1024) : ℝ :=
  (∑ h : Fin 64, ∑ w : Fin 64,
    tr (tIdx b.val (k.val % 256) (64 * (k.val / 256 / 2) + h.val) (64 * (k.val / 256 % 2) + w.val) b.isLt
      (Nat.mod_lt _ (by norm_num)) (by have := h.isLt; have := k.isLt; omega) (by have := w.isLt; have := k.isLt; omega))) / 4096

/-- The 16 × 1024 matrix of quadrant means of an array of extended reals, read through its real parts (the arrays the
    programs run on are finite). -/
def meanArr (t : S16x256x128x128.Idx → EReal) : FVec Ideal S16x1024 .f32 := fun j =>
  ((quadMean (fun i => (t i).toReal) ⟨(j 0).val, (j 0).isLt⟩ ⟨(j 1).val, (j 1).isLt⟩ : ℝ) : EReal)

/-- Where the gate of entry (b, c, h, w) sits in the 16 × 1024 gate matrix: row b, column 256·q + c with q the
    quadrant of (h, w). -/
def gateIdx (i : S16x256x128x128.Idx) : S16x1024.Idx := fun a => match a with
  | ⟨0, _⟩ => ⟨(i 0).val, (i 0).isLt⟩
  | ⟨1, _⟩ => ⟨256 * (2 * ((i 2).val / 64) + (i 3).val / 64) + (i 1).val, by
      have h1 : (i 1).val < 256 := (i 1).isLt
      have h2 : (i 2).val < 128 := (i 2).isLt
      have h3 : (i 3).val < 128 := (i 3).isLt
      show _ < 1024
      omega⟩

/-- The index (0, p, h, w) of one (1, 128, 128, 128) block of the input: channel p of the block, row h, column w. -/
def blk4 (p h w : Nat) (hp : p < 128) (hh : h < 128) (hw : w < 128) : S1x128x128x128.Idx := fun a => match a with
  | ⟨0, _⟩ => ⟨0, Nat.zero_lt_one⟩
  | ⟨1, _⟩ => ⟨p, hp⟩
  | ⟨2, _⟩ => ⟨h, hh⟩
  | ⟨3, _⟩ => ⟨w, hw⟩

/-- The index (0, q, p) of one (1, 4, 128) block of the means or of the gates: quadrant q, channel p of the block. -/
def blk3 (q p : Nat) (hq : q < 4) (hp : p < 128) : S1x4x128.Idx := fun a => match a with
  | ⟨0, _⟩ => ⟨0, Nat.zero_lt_one⟩
  | ⟨1, _⟩ => ⟨q, hq⟩
  | ⟨2, _⟩ => ⟨p, hp⟩

/-- The index (b, q, c) of the (16, 4, 256) array of means or of gates. -/
def arr3 (b q c : Nat) (hb : b < 16) (hq : q < 4) (hc : c < 256) : S16x4x256.Idx := fun a => match a with
  | ⟨0, _⟩ => ⟨b, hb⟩
  | ⟨1, _⟩ => ⟨q, hq⟩
  | ⟨2, _⟩ => ⟨c, hc⟩

variable {F : FTy → Type} [FloatOps F]

/-- x ↦ log(1 + exp x), in the numerically careful spelling both programs use: max(x, 0) + log1p(exp(−|x − 0|)), with
    the not-a-number guard in front. -/
def softplus (x : FVec F S16x256 .f32) : FVec F S16x256 .f32 :=
  have cst : FVec F S_ .f32 := constant S_ .f32 0x00000000#32
  have z : FVec F S16x256 .f32 := broadcastInDim S16x256 ![] bcast_S_S16x256 cst
  have v1 : FVec F S16x256 .f32 := maximumf x z
  have v3 : FVec F S16x256 .f32 := subf x z
  have v4 : IVec S16x256 1 := cmpf .une v3 v3
  have v6 : FVec F S16x256 .f32 := addf x z
  have v7 : FVec F S16x256 .f32 := Host.absf v3
  have v8 : FVec F S16x256 .f32 := Host.negf v7
  have v9 : FVec F S16x256 .f32 := Host.exp v8
  have v10 : FVec F S16x256 .f32 := Host.log1p v9
  have v11 : FVec F S16x256 .f32 := addf v1 v10
  select v4 v6 v11

/-- The two dense layers between the means and the gates: M·w1ᵀ + b1, then x·tanh(softplus x), then ·w3ᵀ + b4, then
    1 / (1 + exp(−x)). -/
def glue (M : FVec F S16x1024 .f32) (w1 : FVec F S256x1024 .f32) (b1 : FVec F S256 .f32) (w3 : FVec F S1024x256 .f32)
    (b4 : FVec F S1024 .f32) : FVec F S16x1024 .f32 :=
  have v2 : FVec F S1024x256 .f32 := transpose S1024x256 [1, 0] w1 transposes_S256x1024_S1024x256_1_0
  have v3 : FVec F S16x256 .f32 := Host.dotGeneral dot_S16x1024_S1024x256_S16x256_1_0_0_1_n_n none M v2
  have v4 : FVec F S1x256 .f32 := broadcastInDim S1x256 ![1] bcast_S256_S1x256_1 b1
  have v5 : FVec F S16x256 .f32 := broadcastInDim S16x256 ![0, 1] bcast_S1x256_S16x256_0_1 v4
  have v6 : FVec F S16x256 .f32 := addf v3 v5
  have v7 : FVec F S16x256 .f32 := softplus v6
  have v8 : FVec F S16x256 .f32 := Host.tanh v7
  have v9 : FVec F S16x256 .f32 := mulf v6 v8
  have v10 : FVec F S256x1024 .f32 := transpose S256x1024 [1, 0] w3 transposes_S1024x256_S256x1024_1_0
  have v11 : FVec F S16x1024 .f32 := Host.dotGeneral dot_S16x256_S256x1024_S16x1024_1_0_0_1_n_n none v9 v10
  have v12 : FVec F S1x1024 .f32 := broadcastInDim S1x1024 ![1] bcast_S1024_S1x1024_1 b4
  have v13 : FVec F S16x1024 .f32 := broadcastInDim S16x1024 ![0, 1] bcast_S1x1024_S16x1024_0_1 v12
  have v14 : FVec F S16x1024 .f32 := addf v11 v13
  have v15 : FVec F S16x1024 .f32 := Host.negf v14
  have v16 : FVec F S16x1024 .f32 := Host.exp v15
  have one : FVec F S_ .f32 := constant S_ .f32 0x3F800000#32
  have v17 : FVec F S16x1024 .f32 := broadcastInDim S16x1024 ![] bcast_S_S16x1024 one
  have v18 : FVec F S16x1024 .f32 := addf v17 v16
  Host.divf v17 v18

/-- The result both programs compute: every entry of `t` times the gate of its batch, quadrant and channel. -/
def G (t : S16x256x128x128.Idx → EReal) (w1 : FVec Ideal S256x1024 .f32) (b1 : FVec Ideal S256 .f32)
    (w3 : FVec Ideal S1024x256 .f32) (b4 : FVec Ideal S1024 .f32) : S16x256x128x128.Idx → EReal := fun i =>
  t i * glue (F := Ideal) (meanArr t) w1 b1 w3 b4 (gateIdx i)

end Cert.QuadGate

end
-- ==== Proof.KRun.lean ====
/-
  The idealized kernel program's run with its result named.

  The program is two launches with a stretch of host operations between them.  Its run ends with every unscoped buffer
  of a core at the last boundary's contents; read at the result's buffer this is what the second launch's write-backs
  leave, and read at each argument it is the argument as launched.
-/
import proofs.«138559_j55224689492532_2_alg».proof.Proof.Gen.KernelIdeal.Frame

set_option maxRecDepth 16384

noncomputable section

namespace Cert.KernelIdeal.RunValue

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates without a fault; the result's buffer then holds the last
    boundary's contents and every argument is as launched. -/
theorem run_named : θ_run defs (onTc (τ := τ) (main (F := F))) ⟨m, fun _ => 0, ρ⟩ (fun r => ∀ c : Dev nD,
      r.2.mem ((c.tc : Thread nD τ).loc main_v22) = V5 m ρ c main_v22
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h c =>
      ⟨h c _ (mem_uc main_v22 (by decide)),
       (h c _ (mem_uc main_arg0 (by decide))).trans (W5_main_arg0 m ρ c),
       (h c _ (mem_uc main_arg1 (by decide))).trans (W5_main_arg1 m ρ c),
       (h c _ (mem_uc main_arg2 (by decide))).trans (W5_main_arg2 m ρ c),
       (h c _ (mem_uc main_arg3 (by decide))).trans (W5_main_arg3 m ρ c),
       (h c _ (mem_uc main_arg4 (by decide))).trans (W5_main_arg4 m ρ c)⟩)

end Cert.KernelIdeal.RunValue

end
-- ==== Proof.KRegion0.lean ====
/-
  The first launch: what its output array holds when it ends.

  Grid point t handles batch t / 2 and channel tile t % 2: it reads the (1, 128, 128, 128) block (b, tile) of the input and
  writes the (1, 4, 128) block (b, ·, tile) of the (16, 4, 256) array of means.  The 32 output blocks tile that array, so
  it ends holding, at (b, q, c), the mean of quadrant q of plane (b, c).
-/
import proofs.«138559_j55224689492532_2_alg».proof.Proof.Gen.KernelIdeal.Frame
import proofs.«138559_j55224689492532_2_alg».proof.Proof.Spec
import Idealize.ShloMosaic.Lib.Pipeline.Value
import Idealize.ShloMosaic.Lib.ValueIdx

set_option maxRecDepth 16384

noncomputable section

namespace Cert.KernelIdeal.Region0

open Idealize.ShloMosaic Idealize.ShloMosaic.TcCoe Idealize.SL.Sem
open Idealize.ShloMosaic.Pipeline (Dat Cfg Window)
open Cert.KernelIdeal Cert.KernelIdeal.Gen Cert.QuadGate

/-- What the first kernel's body leaves at entry (0, q, p) of its output block, for an input block of real entries:
    the mean of quadrant q of channel p of the block. -/
def MeansBlock : Prop :=
  ∀ (x0 : Vec Ideal S1x128x128x128 .f32) (xr : S1x128x128x128.Idx → ℝ), (∀ y, x0 y = ((xr y : ℝ) : EReal)) →
    ∀ (q p : Nat) (hq : q < 4) (hp : p < 128),
      Gen.out0_1 (F := Ideal) x0 (blk3 q p hq hp)
        = (((∑ h : Fin 64, ∑ w : Fin 64, xr (blk4 p (64 * (q / 2) + h.val) (64 * (q % 2) + w.val) hp
            (by have := h.isLt; omega) (by have := w.isLt; omega))) / 4096 : ℝ) : EReal)

/-- The (16, 4, 256) array of quadrant means of a real array. -/
def meansArr3 (tr : S16x256x128x128.Idx → ℝ) : S16x4x256.Idx → EReal := fun j =>
  ((quadMean tr ⟨(j 0).val, (j 0).isLt⟩ ⟨256 * (j 1).val + (j 2).val, by
      have h1 : (j 1).val < 4 := (j 1).isLt
      have h2 : (j 2).val < 256 := (j 2).isLt
      omega⟩ : ℝ) : EReal)

/-- The two windows' block numbers at a grid point: the input's (b, tile, 0, 0) against the output's (b, 0, tile). -/
theorem idx_facts : ∀ t : Fin cfg0.N, win0_0.index t (0 : Fin 4) = win0_1.index t (0 : Fin 3)
    ∧ win0_0.index t (1 : Fin 4) = win0_1.index t (2 : Fin 3)
    ∧ win0_0.index t (2 : Fin 4) = 0 ∧ win0_0.index t (3 : Fin 4) = 0
    ∧ win0_1.index t (1 : Fin 3) = 0
    ∧ win0_1.index t (0 : Fin 3) ≤ 15 ∧ win0_1.index t (2 : Fin 3) ≤ 1 :=
  (by decide +kernel : ∀ t : Fin grid0.N, _)

/-- Every (batch, tile) pair is some grid point's. -/
theorem idx_onto : ∀ (q0 : Fin 16) (q2 : Fin 2), ∃ t : Fin cfg0.N, win0_1.index t = ![q0.val, 0, q2.val] :=
  (by decide +kernel : ∀ (q0 : Fin 16) (q2 : Fin 2), ∃ t : Fin grid0.N, win0_1.index t = ![q0.val, 0, q2.val])

variable (V : (c : Dev nD) → (b : Ref sig .tc) → Buf (Elt Ideal) ((c : Thread nD τ).loc b))

/-- What grid point t writes back is block t of the array of means. -/
theorem flushed_eq (c : Dev nD) (t : Fin cfg0.N) (tr : S16x256x128x128.Idx → ℝ)
    (hfin : ∀ i, (V c main_arg0 : S16x256x128x128.Idx → EReal) i = ((tr i : ℝ) : EReal)) (hmeans : MeansBlock) :
    (dat0 V c).flushed 1 t = ((cfg0.win 1).blk t).view.read (Elt Ideal) (meansArr3 tr) := by
  show (cfg0.win 1).cut (grid0.coords t) ((dat0 V c).after 1 t) = _
  rw [after0_1]
  obtain ⟨e0, e1, e2, e3, e4, e5, e6⟩ := idx_facts t
  funext j
  have hj0 : (j 0).val < 1 := (j 0).isLt
  have hj1 : (j 1).val < 4 := (j 1).isLt
  have hj2 : (j 2).val < 128 := (j 2).isLt
  have ej : j = blk3 (j 1).val (j 2).val hj1 hj2 := by
    funext a; apply Fin.ext
    match a with
    | ⟨0, _⟩ => show (j 0).val = 0; omega
    | ⟨1, _⟩ => rfl
    | ⟨2, _⟩ => rfl
  show out0_1 (iblk0 V c 0 t) j = meansArr3 tr (((cfg0.win 1).blk t).view.emb j)
  generalize (j 1).val = q at hj1 ej
  generalize (j 2).val = p at hj2 ej
  subst ej
  refine (hmeans (iblk0 V c 0 t) (fun y => tr (((cfg0.win 0).blk t).view.emb y))
    (fun y => show (V c main_arg0 : S16x256x128x128.Idx → EReal) (((cfg0.win 0).blk t).view.emb y) = _ from hfin _) q p hj1 hj2).trans ?_
  unfold meansArr3 quadMean
  refine congrArg (fun r : ℝ => (r : EReal)) ?_
  congr 1
  refine Finset.sum_congr rfl fun h _ => Finset.sum_congr rfl fun w _ => congrArg tr ?_
  have hh : h.val < 64 := h.isLt
  have hw : w.val < 64 := w.isLt
  funext a; apply Fin.ext
  match a with
  | ⟨0, _⟩ =>
    show win0_0.index t (0 : Fin 4) * 1 + 1 * 0 = win0_1.index t (0 : Fin 3) * 1 + 1 * 0
    omega
  | ⟨1, _⟩ =>
    show win0_0.index t (1 : Fin 4) * 128 + 1 * p
      = (256 * (win0_1.index t (1 : Fin 3) * 4 + 1 * q) + (win0_1.index t (2 : Fin 3) * 128 + 1 * p)) % 256
    omega
  | ⟨2, _⟩ =>
    show win0_0.index t (2 : Fin 4) * 128 + 1 * (64 * (q / 2) + h.val)
      = 64 * ((256 * (win0_1.index t (1 : Fin 3) * 4 + 1 * q) + (win0_1.index t (2 : Fin 3) * 128 + 1 * p)) / 256 / 2) + h.val
    omega
  | ⟨3, _⟩ =>
    show win0_0.index t (3 : Fin 4) * 128 + 1 * (64 * (q % 2) + w.val)
      = 64 * ((256 * (win0_1.index t (1 : Fin 3) * 4 + 1 * q) + (win0_1.index t (2 : Fin 3) * 128 + 1 * p)) / 256 % 2) + w.val
    omega

/-- An index of the array of means is in grid point t's block iff each coordinate is in the block's range. -/
theorem mem_blk (t : Fin cfg0.N) (i : S16x4x256.Idx) :
    i ∈ ((cfg0.win 1).blk t).view.set ↔ ∀ a : Fin 3, win0_1.index t a * S1x4x128.size a ≤ (i a).val
      ∧ (i a).val < win0_1.index t a * S1x4x128.size a + S1x4x128.size a := by
  show i ∈ ((View.whole main_v0).slice (win0_1.rect t)).set ↔ _
  rw [View.set_slice_whole, Rect.mem_set_unit]
  exact Iff.rfl

/-- The 32 output blocks cover the array of means. -/
theorem cover (i : S16x4x256.Idx) : ∃ t : Fin cfg0.N, (cfg0.win 1).flush t = true ∧ i ∈ ((cfg0.win 1).blk t).view.set := by
  have hi0 : (i 0).val < 16 := (i 0).isLt
  have hi1 : (i 1).val < 4 := (i 1).isLt
  have hi2 : (i 2).val < 256 := (i 2).isLt
  obtain ⟨t, ht⟩ := idx_onto ⟨(i 0).val, hi0⟩ ⟨(i 2).val / 128, by omega⟩
  have q0 : win0_1.index t (0 : Fin 3) = (i 0).val := congrFun ht 0
  have q1 : win0_1.index t (1 : Fin 3) = 0 := congrFun ht 1
  have q2 : win0_1.index t (2 : Fin 3) = (i 2).val / 128 := congrFun ht 2
  refine ⟨t, flush0_1 t, ?_⟩
  rw [mem_blk]
  intro a
  match a with
  | ⟨0, _⟩ => show win0_1.index t (0 : Fin 3) * 1 ≤ (i 0).val ∧ (i 0).val < win0_1.index t (0 : Fin 3) * 1 + 1; omega
  | ⟨1, _⟩ => show win0_1.index t (1 : Fin 3) * 4 ≤ (i 1).val ∧ (i 1).val < win0_1.index t (1 : Fin 3) * 4 + 4; omega
  | ⟨2, _⟩ => show win0_1.index t (2 : Fin 3) * 128 ≤ (i 2).val ∧ (i 2).val < win0_1.index t (2 : Fin 3) * 128 + 128; omega

/-- The array of means when the first launch ends. -/
theorem means_array (c : Dev nD) (tr : S16x256x128x128.Idx → ℝ)
    (hfin : ∀ i, (V c main_arg0 : S16x256x128x128.Idx → EReal) i = ((tr i : ℝ) : EReal)) (hmeans : MeansBlock) :
    (dat0 V c).arrAt 1 cfg0.N = meansArr3 tr :=
  (dat0 V c).arrAt_eq_of_cover 1 (meansArr3 tr) (fun t _ => flushed_eq V c t tr hfin hmeans) cover

end Cert.KernelIdeal.Region0

end
-- ==== Proof.KRegion1.lean ====
/-
  The second launch: what its output array holds when it ends.

  Grid point t handles batch t / 2 and channel tile t % 2: it reads the (1, 128, 128, 128) block (b, tile) of the input and
  the (1, 4, 128) block (b, ·, tile) of the (16, 4, 256) gates, and writes the (1, 128, 128, 128) block (b, tile) of the
  output.  The 32 output blocks tile the output, so it ends holding every input entry times the gate of its batch, quadrant
  and channel.
-/
import proofs.«138559_j55224689492532_2_alg».proof.Proof.Gen.KernelIdeal.Frame
import proofs.«138559_j55224689492532_2_alg».proof.Proof.Spec
import Idealize.ShloMosaic.Lib.Pipeline.Value
import Idealize.ShloMosaic.Lib.ValueIdx

set_option maxRecDepth 16384

noncomputable section

namespace Cert.KernelIdeal.Region1

open Idealize.ShloMosaic Idealize.ShloMosaic.TcCoe Idealize.SL.Sem
open Idealize.ShloMosaic.Pipeline (Dat Cfg Window)
open Cert.KernelIdeal Cert.KernelIdeal.Gen Cert.QuadGate

/-- What the second kernel's body leaves at entry (0, p, h, w) of its output block: the input entry times the gate of
    the entry's quadrant 2·(h / 64) + w / 64 and channel p. -/
def GatedBlock : Prop :=
  ∀ (x0 : Vec Ideal S1x128x128x128 .f32) (x1 : Vec Ideal S1x4x128 .f32) (p h w : Nat) (hp : p < 128) (hh : h < 128) (hw : w < 128),
    Gen.out1_2 (F := Ideal) x0 x1 (blk4 p h w hp hh hw)
      = x0 (blk4 p h w hp hh hw) * x1 (blk3 (2 * (h / 64) + w / 64) p (by omega) hp)

/-- Every entry of `t` times the entry of the (16, 4, 256) gates at its batch, quadrant and channel. -/
def gatedArr (t : S16x256x128x128.Idx → EReal) (g : S16x4x256.Idx → EReal) : S16x256x128x128.Idx → EReal := fun i =>
  t i * g (arr3 (i 0).val (2 * ((i 2).val / 64) + (i 3).val / 64) (i 1).val (i 0).isLt
    (by have h2 : (i 2).val < 128 := (i 2).isLt; have h3 : (i 3).val < 128 := (i 3).isLt; omega) (i 1).isLt)

/-- The three windows' block numbers at a grid point: input and output (b, tile, 0, 0), gates (b, 0, tile). -/
theorem idx_facts : ∀ t : Fin cfg1.N, win1_0.index t (0 : Fin 4) = win1_2.index t (0 : Fin 4)
    ∧ win1_0.index t (1 : Fin 4) = win1_2.index t (1 : Fin 4)
    ∧ win1_0.index t (2 : Fin 4) = 0 ∧ win1_0.index t (3 : Fin 4) = 0
    ∧ win1_1.index t (0 : Fin 3) = win1_2.index t (0 : Fin 4)
    ∧ win1_1.index t (1 : Fin 3) = 0
    ∧ win1_1.index t (2 : Fin 3) = win1_2.index t (1 : Fin 4)
    ∧ win1_2.index t (2 : Fin 4) = 0 ∧ win1_2.index t (3 : Fin 4) = 0
    ∧ win1_2.index t (0 : Fin 4) ≤ 15 ∧ win1_2.index t (1 : Fin 4) ≤ 1 :=
  (by decide +kernel : ∀ t : Fin grid1.N, _)

/-- Every (batch, tile) pair is some grid point's. -/
theorem idx_onto : ∀ (q0 : Fin 16) (q1 : Fin 2), ∃ t : Fin cfg1.N, win1_2.index t = ![q0.val, q1.val, 0, 0] :=
  (by decide +kernel : ∀ (q0 : Fin 16) (q1 : Fin 2), ∃ t : Fin grid1.N, win1_2.index t = ![q0.val, q1.val, 0, 0])

/-- A product of two array entries depends only on the two indices. -/
theorem mul_congr_idx (T : S16x256x128x128.Idx → EReal) (Gt : S16x4x256.Idx → EReal) {y0 y2 : S16x256x128x128.Idx}
    {y1 y3 : S16x4x256.Idx} (h0 : y0 = y2) (h1 : y1 = y3) : T y0 * Gt y1 = T y2 * Gt y3 := by rw [h0, h1]

variable (V : (c : Dev nD) → (b : Ref sig .tc) → Buf (Elt Ideal) ((c : Thread nD τ).loc b))

/-- What grid point t writes back is block t of the gated array. -/
theorem flushed_eq (c : Dev nD) (t : Fin cfg1.N) (hgated : GatedBlock) :
    (dat1 V c).flushed 2 t = ((cfg1.win 2).blk t).view.read (Elt Ideal)
      (gatedArr (V c main_arg0 : S16x256x128x128.Idx → EReal) (V c main_v21 : S16x4x256.Idx → EReal)) := by
  show (cfg1.win 2).cut (grid1.coords t) ((dat1 V c).after 2 t) = _
  rw [after1_2]
  obtain ⟨e0, e1, e2, e3, e4, e5, e6, e7, e8, e9, e10⟩ := idx_facts t
  funext j
  have hj0 : (j 0).val < 1 := (j 0).isLt
  have hj1 : (j 1).val < 128 := (j 1).isLt
  have hj2 : (j 2).val < 128 := (j 2).isLt
  have hj3 : (j 3).val < 128 := (j 3).isLt
  have ej : j = blk4 (j 1).val (j 2).val (j 3).val hj1 hj2 hj3 := by
    funext a; apply Fin.ext
    match a with
    | ⟨0, _⟩ => show (j 0).val = 0; omega
    | ⟨1, _⟩ => rfl
    | ⟨2, _⟩ => rfl
    | ⟨3, _⟩ => rfl
  show out1_2 (iblk1 V c 0 t) (iblk1 V c 1 t) j
    = gatedArr (V c main_arg0 : S16x256x128x128.Idx → EReal) (V c main_v21 : S16x4x256.Idx → EReal) (((cfg1.win 2).blk t).view.emb j)
  generalize (j 1).val = p at hj1 ej
  generalize (j 2).val = h at hj2 ej
  generalize (j 3).val = w at hj3 ej
  subst ej
  refine (hgated (iblk1 V c 0 t) (iblk1 V c 1 t) p h w hj1 hj2 hj3).trans ?_
  unfold gatedArr
  have i0 : ((cfg1.win 0).blk t).view.emb (blk4 p h w hj1 hj2 hj3) = ((cfg1.win 2).blk t).view.emb (blk4 p h w hj1 hj2 hj3) := by
    funext a; apply Fin.ext
    match a with
    | ⟨0, _⟩ => show win1_0.index t (0 : Fin 4) * 1 + 1 * 0 = win1_2.index t (0 : Fin 4) * 1 + 1 * 0; omega
    | ⟨1, _⟩ => show win1_0.index t (1 : Fin 4) * 128 + 1 * p = win1_2.index t (1 : Fin 4) * 128 + 1 * p; omega
    | ⟨2, _⟩ => show win1_0.index t (2 : Fin 4) * 128 + 1 * h = win1_2.index t (2 : Fin 4) * 128 + 1 * h; omega
    | ⟨3, _⟩ => show win1_0.index t (3 : Fin 4) * 128 + 1 * w = win1_2.index t (3 : Fin 4) * 128 + 1 * w; omega
  refine mul_congr_idx (V c main_arg0) (V c main_v21) i0 ?_
  funext a; apply Fin.ext
  match a with
  | ⟨0, _⟩ => show win1_1.index t (0 : Fin 3) * 1 + 1 * 0 = win1_2.index t (0 : Fin 4) * 1 + 1 * 0; omega
  | ⟨1, _⟩ =>
    show win1_1.index t (1 : Fin 3) * 4 + 1 * (2 * (h / 64) + w / 64)
      = 2 * ((win1_2.index t (2 : Fin 4) * 128 + 1 * h) / 64) + (win1_2.index t (3 : Fin 4) * 128 + 1 * w) / 64
    omega
  | ⟨2, _⟩ => show win1_1.index t (2 : Fin 3) * 128 + 1 * p = win1_2.index t (1 : Fin 4) * 128 + 1 * p; omega

/-- An index of the output is in grid point t's block iff each coordinate is in the block's range. -/
theorem mem_blk (t : Fin cfg1.N) (i : S16x256x128x128.Idx) :
    i ∈ ((cfg1.win 2).blk t).view.set ↔ ∀ a : Fin 4, win1_2.index t a * S1x128x128x128.size a ≤ (i a).val
      ∧ (i a).val < win1_2.index t a * S1x128x128x128.size a + S1x128x128x128.size a := by
  show i ∈ ((View.whole main_v22).slice (win1_2.rect t)).set ↔ _
  rw [View.set_slice_whole, Rect.mem_set_unit]
  exact Iff.rfl

/-- The 32 output blocks cover the output. -/
theorem cover (i : S16x256x128x128.Idx) : ∃ t : Fin cfg1.N, (cfg1.win 2).flush t = true ∧ i ∈ ((cfg1.win 2).blk t).view.set := by
  have hi0 : (i 0).val < 16 := (i 0).isLt
  have hi1 : (i 1).val < 256 := (i 1).isLt
  have hi2 : (i 2).val < 128 := (i 2).isLt
  have hi3 : (i 3).val < 128 := (i 3).isLt
  obtain ⟨t, ht⟩ := idx_onto ⟨(i 0).val, hi0⟩ ⟨(i 1).val / 128, by omega⟩
  have q0 : win1_2.index t (0 : Fin 4) = (i 0).val := congrFun ht 0
  have q1 : win1_2.index t (1 : Fin 4) = (i 1).val / 128 := congrFun ht 1
  have q2 : win1_2.index t (2 : Fin 4) = 0 := congrFun ht 2
  have q3 : win1_2.index t (3 : Fin 4) = 0 := congrFun ht 3
  refine ⟨t, flush1_2 t, ?_⟩
  rw [mem_blk]
  intro a
  match a with
  | ⟨0, _⟩ => show win1_2.index t (0 : Fin 4) * 1 ≤ (i 0).val ∧ (i 0).val < win1_2.index t (0 : Fin 4) * 1 + 1; omega
  | ⟨1, _⟩ => show win1_2.index t (1 : Fin 4) * 128 ≤ (i 1).val ∧ (i 1).val < win1_2.index t (1 : Fin 4) * 128 + 128; omega
  | ⟨2, _⟩ => show win1_2.index t (2 : Fin 4) * 128 ≤ (i 2).val ∧ (i 2).val < win1_2.index t (2 : Fin 4) * 128 + 128; omega
  | ⟨3, _⟩ => show win1_2.index t (3 : Fin 4) * 128 ≤ (i 3).val ∧ (i 3).val < win1_2.index t (3 : Fin 4) * 128 + 128; omega

/-- The output array when the second launch ends. -/
theorem gated_array (c : Dev nD) (hgated : GatedBlock) :
    (dat1 V c).arrAt 2 cfg1.N
      = gatedArr (V c main_arg0 : S16x256x128x128.Idx → EReal) (V c main_v21 : S16x4x256.Idx → EReal) :=
  (dat1 V c).arrAt_eq_of_cover 2 _ (fun t _ => flushed_eq V c t hgated) cover

end Cert.KernelIdeal.Region1

end
-- ==== Proof.KValue.lean ====
/-
  The idealized kernel program's result as one function of its arguments.

  Between the launches the host reshapes the (16, 4, 256) means to 16 × 1024, applies the two dense layers and reshapes
  the gates back to (16, 4, 256); the second launch reads the input (never written) and those gates.  Reading each
  boundary's contents where the next piece looks gives the result array as `G` of the five arguments.
-/
import proofs.«138559_j55224689492532_2_alg».proof.Proof.Gen.KernelIdeal.Frame
import proofs.«138559_j55224689492532_2_alg».proof.Proof.Spec
import proofs.«138559_j55224689492532_2_alg».proof.Proof.KRegion0
import proofs.«138559_j55224689492532_2_alg».proof.Proof.KRegion1
import Idealize.ShloMosaic.Lib.StableHlo.Run
import Idealize.ShloMosaic.Lib.Pipeline.Value
import Idealize.ShloMosaic.Lib.ValueIdx

set_option maxRecDepth 16384

noncomputable section

namespace Cert.KernelIdeal.Whole

open Idealize.ShloMosaic Idealize.ShloMosaic.TcCoe Idealize.SL.Sem Idealize.ShloMosaic.StableHlo
open Idealize.ShloMosaic.Pipeline (Dat Cfg Window)
open Cert.KernelIdeal Cert.KernelIdeal.Gen Cert.QuadGate

/-! ## Two reshapes read at an index -/

/-- The (16, 4, 256) means read as a 16 × 1024 matrix: entry (b, k) is the mean of quadrant k / 256 of plane (b, k % 256). -/
theorem cast_means (tr : S16x256x128x128.Idx → ℝ) :
    shapeCast S16x1024 (Region0.meansArr3 tr) shapeCasts_S16x4x256_S16x1024
      = fun j : S16x1024.Idx => ((quadMean tr ⟨(j 0).val, (j 0).isLt⟩ ⟨(j 1).val, (j 1).isLt⟩ : ℝ) : EReal) := by
  funext j
  have h0 : (j 0).val < 16 := (j 0).isLt
  have h1 : (j 1).val < 1024 := (j 1).isLt
  rw [shapeCast_apply (Region0.meansArr3 tr) shapeCasts_S16x4x256_S16x1024 j
    (arr3 (j 0).val ((j 1).val / 256) ((j 1).val % 256) h0 (by omega) (Nat.mod_lt _ (by norm_num)))
    (by rw [Shape.rowMajor_val_three, Shape.rowMajor_val_two]
        show ((j 0).val * 4 + (j 1).val / 256) * 256 + (j 1).val % 256 = (j 0).val * 1024 + (j 1).val
        omega)]
  unfold Region0.meansArr3
  refine congrArg (fun r : ℝ => (r : EReal)) (congrArg (quadMean tr _) (Fin.ext ?_))
  show 256 * ((j 1).val / 256) + (j 1).val % 256 = (j 1).val
  omega

/-- Gating by a 16 × 1024 matrix read as (16, 4, 256): entry i of the product uses the matrix at row b, column 256·q + c. -/
theorem gated_cast (t : S16x256x128x128.Idx → EReal) (g : S16x1024.Idx → EReal) :
    Region1.gatedArr t (shapeCast S16x4x256 g shapeCasts_S16x1024_S16x4x256) = fun i => t i * g (gateIdx i) := by
  funext i
  have h0 : (i 0).val < 16 := (i 0).isLt
  have h1 : (i 1).val < 256 := (i 1).isLt
  have h2 : (i 2).val < 128 := (i 2).isLt
  have h3 : (i 3).val < 128 := (i 3).isLt
  unfold Region1.gatedArr
  refine congrArg (fun x : EReal => t i * x) ?_
  refine shapeCast_apply g shapeCasts_S16x1024_S16x4x256 _ (gateIdx i) ?_
  rw [Shape.rowMajor_val_three, Shape.rowMajor_val_two]
  show (i 0).val * 1024 + (256 * (2 * ((i 2).val / 64) + (i 3).val / 64) + (i 1).val)
    = ((i 0).val * 4 + (2 * ((i 2).val / 64) + (i 3).val / 64)) * 256 + (i 1).val
  omega

/-! ## The boundaries' contents -/

variable (m : (ℓ : Loc nD τ sig) → Buf (Elt Ideal) ℓ) (ρ : Dev nD → PrngReg)

/-- When the first launch ends, the means' buffer holds what its write-backs leave. -/
theorem means_exit (c : Dev nD) : W1 m ρ c (Proc.devRef .tc main_v0) = (dat0 (V0 m ρ) c).arrAt 1 cfg0.N := W1_arr m ρ c 1

/-- The first launch writes no argument. -/
theorem arg1_exit (c : Dev nD) : W1 m ρ c (Proc.devRef .tc main_arg1) = m ((c : Thread nD τ).loc main_arg1) := W1_of_ne m ρ c main_arg1 (by decide)
theorem arg2_exit (c : Dev nD) : W1 m ρ c (Proc.devRef .tc main_arg2) = m ((c : Thread nD τ).loc main_arg2) := W1_of_ne m ρ c main_arg2 (by decide)
theorem arg3_exit (c : Dev nD) : W1 m ρ c (Proc.devRef .tc main_arg3) = m ((c : Thread nD τ).loc main_arg3) := W1_of_ne m ρ c main_arg3 (by decide)
theorem arg4_exit (c : Dev nD) : W1 m ρ c (Proc.devRef .tc main_arg4) = m ((c : Thread nD τ).loc main_arg4) := W1_of_ne m ρ c main_arg4 (by decide)

/-- The host stretch between the launches leaves, in the gates' buffer, the two dense layers of the reshaped means. -/
theorem gates_entry (c : Dev nD) : W4 m ρ c (Proc.devRef .tc main_v21)
    = shapeCast S16x4x256 (glue (F := Ideal) (shapeCast S16x1024 (W1 m ρ c (Proc.devRef .tc main_v0)) shapeCasts_S16x4x256_S16x1024)
        (W1 m ρ c (Proc.devRef .tc main_arg1)) (W1 m ρ c (Proc.devRef .tc main_arg2)) (W1 m ρ c (Proc.devRef .tc main_arg3))
        (W1 m ρ c (Proc.devRef .tc main_arg4))) shapeCasts_S16x1024_S16x4x256 := by
  show after hostOps1_2 (after hostOps1_1 (after hostOps1 (W1 m ρ c))) (Proc.devRef .tc main_v21) = _
  generalize W1 m ρ c = W
  after_results_simp <;> rfl

/-- The second launch finds the input as launched. -/
theorem input_entry (c : Dev nD) : W4 m ρ c (Proc.devRef .tc main_arg0) = m ((c : Thread nD τ).loc main_arg0) :=
  (((W5_arr m ρ c 0).trans (((dat1 (V4 m ρ) c).arrAt_in 0 rfl _).trans (A_eq1 (V4 m ρ) c 0))).symm).trans (W5_main_arg0 m ρ c)

/-- When the second launch ends, the result's buffer holds what its write-backs leave. -/
theorem result_exit (c : Dev nD) : W5 m ρ c (Proc.devRef .tc main_v22) = (dat1 (V4 m ρ) c).arrAt 2 cfg1.N := W5_arr m ρ c 2

/-! ## The whole value -/

/-- On a finite input the result's buffer ends at `G` of the five arguments. -/
theorem result_eq (c : Dev nD)
    (hfin : ∀ i, (m ((c : Thread nD τ).loc main_arg0) : S16x256x128x128.Idx → EReal) i
      = ((((m ((c : Thread nD τ).loc main_arg0) : S16x256x128x128.Idx → EReal) i).toReal : ℝ) : EReal))
    (hmeans : Region0.MeansBlock) (hgated : Region1.GatedBlock) :
    V5 m ρ c main_v22 = G (m ((c : Thread nD τ).loc main_arg0)) (m ((c : Thread nD τ).loc main_arg1)) (m ((c : Thread nD τ).loc main_arg2))
      (m ((c : Thread nD τ).loc main_arg3)) (m ((c : Thread nD τ).loc main_arg4)) := by
  show W5 m ρ c (Proc.devRef .tc main_v22) = _
  rw [result_exit, Region1.gated_array (V4 m ρ) c hgated]
  show Region1.gatedArr (W4 m ρ c (Proc.devRef .tc main_arg0)) (W4 m ρ c (Proc.devRef .tc main_v21)) = _
  rw [input_entry, gates_entry, means_exit, arg1_exit, arg2_exit, arg3_exit, arg4_exit,
    Region0.means_array (V0 m ρ) c (fun i => ((m ((c : Thread nD τ).loc main_arg0) : S16x256x128x128.Idx → EReal) i).toReal) hfin hmeans,
    cast_means, gated_cast]
  rfl

end Cert.KernelIdeal.Whole

end
-- ==== Proof.RefTerms.lean ====
/-
  The reference's computation, cut into its three stages and written as pure functions of the arrays they read:
  the four quadrant means joined into one 16 × 1024 matrix, the two dense layers (the shared `glue`), and the four
  gated quadrants joined back into one array.
-/
import proofs.«138559_j55224689492532_2_alg».proof.ReferenceIdeal
import proofs.«138559_j55224689492532_2_alg».proof.Proof.Gen.ReferenceIdeal
import proofs.«138559_j55224689492532_2_alg».proof.Proof.Spec

noncomputable section

namespace Cert.ReferenceIdeal.Terms

open Idealize.ShloMosaic Cert.ReferenceIdeal Cert.ReferenceIdeal.Gen

/-- One quadrant's means: the quadrant cut out of every plane at the offsets `off`, summed over its two plane axes from
    zero, divided by 4096. -/
def qmean (off : Fin 4 → Nat) (h : S16x256x128x128.Slices off S16x256x64x64) (t : FVec Ideal S16x256x128x128 .f32) :
    FVec Ideal S16x256 .f32 :=
  Host.divf (F := Ideal)
    (Host.reduceAdd (F := Ideal) (extractStridedSlice S16x256x64x64 off t h) (constant (F := Ideal) S_ .f32 0x00000000#32)
      reducesTo_S16x256x64x64_S16x256_d2_3 h_S_)
    (broadcastInDim S16x256 ![] bcast_S_S16x256 (constant (F := Ideal) S_ .f32 0x45800000#32))

/-- The 16 × 1024 matrix of means: the four quadrants' 16 × 256 matrices side by side. -/
def refMeans (t : FVec Ideal S16x256x128x128 .f32) : FVec Ideal S16x1024 .f32 :=
  concatenate S16x1024 1 [⟨S16x256, qmean ![0, 0, 0, 0] slices_S16x256x128x128_S16x256x64x64_0_0_0_0 t⟩,
    ⟨S16x256, qmean ![0, 0, 0, 64] slices_S16x256x128x128_S16x256x64x64_0_0_0_64 t⟩,
    ⟨S16x256, qmean ![0, 0, 64, 0] slices_S16x256x128x128_S16x256x64x64_0_0_64_0 t⟩,
    ⟨S16x256, qmean ![0, 0, 64, 64] slices_S16x256x128x128_S16x256x64x64_0_0_64_64 t⟩]
    concatenates_S16x256_S16x256_S16x256_S16x256_S16x1024_d1

/-- One quadrant's gates spread over the quadrant: the (16, 4, 256) gates with two unit axes appended, the quadrant's
    slab at the offsets `off`, its unit quadrant axis dropped, repeated over the 64 × 64 positions. -/
def gateBcast (off : Fin 5 → Nat) (h : S16x4x256x1x1.Slices off S16x1x256x1x1) (g : FVec Ideal S16x4x256 .f32) :
    FVec Ideal S16x256x64x64 .f32 :=
  broadcastInDim S16x256x64x64 ![0, 1, 2, 3] bcast_S16x256x1x1_S16x256x64x64_0_1_2_3
    (shapeCast S16x256x1x1
      (extractStridedSlice S16x1x256x1x1 off
        (broadcastInDim S16x4x256x1x1 ![0, 1, 2] bcast_S16x4x256_S16x4x256x1x1_0_1_2 g) h)
      shapeCasts_S16x1x256x1x1_S16x256x1x1)

/-- The result: each quadrant times its gates, left and right halves joined along the columns, then upper and lower
    halves along the rows. -/
def refFinal (s0 s1 s2 s3 : FVec Ideal S16x256x64x64 .f32) (g : FVec Ideal S16x4x256 .f32) : FVec Ideal S16x256x128x128 .f32 :=
  concatenate S16x256x128x128 2
    [⟨S16x256x64x128, concatenate S16x256x64x128 3
        [⟨S16x256x64x64, mulf s0 (gateBcast ![0, 0, 0, 0, 0] slices_S16x4x256x1x1_S16x1x256x1x1_0_0_0_0_0 g)⟩,
         ⟨S16x256x64x64, mulf s1 (gateBcast ![0, 1, 0, 0, 0] slices_S16x4x256x1x1_S16x1x256x1x1_0_1_0_0_0 g)⟩]
        concatenates_S16x256x64x64_S16x256x64x64_S16x256x64x128_d3⟩,
     ⟨S16x256x64x128, concatenate S16x256x64x128 3
        [⟨S16x256x64x64, mulf s2 (gateBcast ![0, 2, 0, 0, 0] slices_S16x4x256x1x1_S16x1x256x1x1_0_2_0_0_0 g)⟩,
         ⟨S16x256x64x64, mulf s3 (gateBcast ![0, 3, 0, 0, 0] slices_S16x4x256x1x1_S16x1x256x1x1_0_3_0_0_0 g)⟩]
        concatenates_S16x256x64x64_S16x256x64x64_S16x256x64x128_d3⟩]
    concatenates_S16x256x64x128_S16x256x64x128_S16x256x128x128_d2

/-- The four quadrants of the input, as the reference cuts them. -/
def quad0 (t : FVec Ideal S16x256x128x128 .f32) : FVec Ideal S16x256x64x64 .f32 :=
  extractStridedSlice S16x256x64x64 ![0, 0, 0, 0] t slices_S16x256x128x128_S16x256x64x64_0_0_0_0
def quad1 (t : FVec Ideal S16x256x128x128 .f32) : FVec Ideal S16x256x64x64 .f32 :=
  extractStridedSlice S16x256x64x64 ![0, 0, 0, 64] t slices_S16x256x128x128_S16x256x64x64_0_0_0_64
def quad2 (t : FVec Ideal S16x256x128x128 .f32) : FVec Ideal S16x256x64x64 .f32 :=
  extractStridedSlice S16x256x64x64 ![0, 0, 64, 0] t slices_S16x256x128x128_S16x256x64x64_0_0_64_0
def quad3 (t : FVec Ideal S16x256x128x128 .f32) : FVec Ideal S16x256x64x64 .f32 :=
  extractStridedSlice S16x256x64x64 ![0, 0, 64, 64] t slices_S16x256x128x128_S16x256x64x64_0_0_64_64

end Cert.ReferenceIdeal.Terms

end
-- ==== Proof.RefStages.lean ====
/-
  The reference program's fold of operations, read back in three stages: the quadrant means, the two dense layers, the
  gated quadrants joined.  Each stage's result is a pure function of a few buffers of the stage before, so no stage's
  term repeats an earlier one.
-/
import proofs.«138559_j55224689492532_2_alg».proof.Proof.RefRun
import proofs.«138559_j55224689492532_2_alg».proof.Proof.RefTerms

set_option maxRecDepth 8192

noncomputable section

namespace Cert.ReferenceIdeal.Stages

open Cert.ReferenceIdeal Cert.ReferenceIdeal.Gen Idealize.ShloMosaic Idealize.ShloMosaic.TcCoe Idealize.SL.Sem Idealize.ShloMosaic.StableHlo
open Cert.ReferenceIdeal.Terms

variable {F : FTy → Type} [FloatOps F]

/-- The first 25 operations: the four quadrants cut out, each summed and divided, the four matrices of means joined. -/
abbrev opsA : List (HloOp τ sig (Elt F)) :=
  [ unary main_arg0 main_v0 ((extractStridedSlice S16x256x64x64 ![0, 0, 0, 0] · slices_S16x256x128x128_S16x256x64x64_0_0_0_0) : (⟨S16x256x128x128, .f32⟩ : BufTy).Contents (Elt F) → (⟨S16x256x64x64, .f32⟩ : BufTy).Contents (Elt F)),
    unary main_arg0 main_v1 ((extractStridedSlice S16x256x64x64 ![0, 0, 0, 64] · slices_S16x256x128x128_S16x256x64x64_0_0_0_64) : (⟨S16x256x128x128, .f32⟩ : BufTy).Contents (Elt F) → (⟨S16x256x64x64, .f32⟩ : BufTy).Contents (Elt F)),
    unary main_arg0 main_v2 ((extractStridedSlice S16x256x64x64 ![0, 0, 64, 0] · slices_S16x256x128x128_S16x256x64x64_0_0_64_0) : (⟨S16x256x128x128, .f32⟩ : BufTy).Contents (Elt F) → (⟨S16x256x64x64, .f32⟩ : BufTy).Contents (Elt F)),
    unary main_arg0 main_v3 ((extractStridedSlice S16x256x64x64 ![0, 0, 64, 64] · slices_S16x256x128x128_S16x256x64x64_0_0_64_64) : (⟨S16x256x128x128, .f32⟩ : BufTy).Contents (Elt F) → (⟨S16x256x64x64, .f32⟩ : BufTy).Contents (Elt F)),
    nullary main_cst (constant S_ .f32 0x00000000#32),
    binary main_v0 main_cst main_v4 ((fun x v => Host.reduceAdd x v reducesTo_S16x256x64x64_S16x256_d2_3 h_S_) : (⟨S16x256x64x64, .f32⟩ : BufTy).Contents (Elt F) → (⟨S_, .f32⟩ : BufTy).Contents (Elt F) → (⟨S16x256, .f32⟩ : BufTy).Contents (Elt F)),
    nullary main_cst_0 (constant S_ .f32 0x45800000#32),
    unary main_cst_0 main_v5 (broadcastInDim S16x256 ![] bcast_S_S16x256 : (⟨S_, .f32⟩ : BufTy).Contents (Elt F) → (⟨S16x256, .f32⟩ : BufTy).Contents (Elt F)),
    binary main_v4 main_v5 main_v6 (Host.divf : (⟨S16x256, .f32⟩ : BufTy).Contents (Elt F) → (⟨S16x256, .f32⟩ : BufTy).Contents (Elt F) → (⟨S16x256, .f32⟩ : BufTy).Contents (Elt F)),
    nullary main_cst_1 (constant S_ .f32 0x00000000#32),
    binary main_v1 main_cst_1 main_v7 ((fun x v => Host.reduceAdd x v reducesTo_S16x256x64x64_S16x256_d2_3 h_S_) : (⟨S16x256x64x64, .f32⟩ : BufTy).Contents (Elt F) → (⟨S_, .f32⟩ : BufTy).Contents (Elt F) → (⟨S16x256, .f32⟩ : BufTy).Contents (Elt F)),
    nullary main_cst_2 (constant S_ .f32 0x45800000#32),
    unary main_cst_2 main_v8 (broadcastInDim S16x256 ![] bcast_S_S16x256 : (⟨S_, .f32⟩ : BufTy).Contents (Elt F) → (⟨S16x256, .f32⟩ : BufTy).Contents (Elt F)),
    binary main_v7 main_v8 main_v9 (Host.divf : (⟨S16x256, .f32⟩ : BufTy).Contents (Elt F) → (⟨S16x256, .f32⟩ : BufTy).Contents (Elt F) → (⟨S16x256, .f32⟩ : BufTy).Contents (Elt F)),
    nullary main_cst_3 (constant S_ .f32 0x00000000#32),
    binary main_v2 main_cst_3 main_v10 ((fun x v => Host.reduceAdd x v reducesTo_S16x256x64x64_S16x256_d2_3 h_S_) : (⟨S16x256x64x64, .f32⟩ : BufTy).Contents (Elt F) → (⟨S_, .f32⟩ : BufTy).Contents (Elt F) → (⟨S16x256, .f32⟩ : BufTy).Contents (Elt F)),
    nullary main_cst_4 (constant S_ .f32 0x45800000#32),
    unary main_cst_4 main_v11 (broadcastInDim S16x256 ![] bcast_S_S16x256 : (⟨S_, .f32⟩ : BufTy).Contents (Elt F) → (⟨S16x256, .f32⟩ : BufTy).Contents (Elt F)),
    binary main_v10 main_v11 main_v12 (Host.divf : (⟨S16x256, .f32⟩ : BufTy).Contents (Elt F) → (⟨S16x256, .f32⟩ : BufTy).Contents (Elt F) → (⟨S16x256, .f32⟩ : BufTy).Contents (Elt F)),
    nullary main_cst_5 (constant S_ .f32 0x00000000#32),
    binary main_v3 main_cst_5 main_v13 ((fun x v => Host.reduceAdd x v reducesTo_S16x256x64x64_S16x256_d2_3 h_S_) : (⟨S16x256x64x64, .f32⟩ : BufTy).Contents (Elt F) → (⟨S_, .f32⟩ : BufTy).Contents (Elt F) → (⟨S16x256, .f32⟩ : BufTy).Contents (Elt F)),
    nullary main_cst_6 (constant S_ .f32 0x45800000#32),
    unary main_cst_6 main_v14 (broadcastInDim S16x256 ![] bcast_S_S16x256 : (⟨S_, .f32⟩ : BufTy).Contents (Elt F) → (⟨S16x256, .f32⟩ : BufTy).Contents (Elt F)),
    binary main_v13 main_v14 main_v15 (Host.divf : (⟨S16x256, .f32⟩ : BufTy).Contents (Elt F) → (⟨S16x256, .f32⟩ : BufTy).Contents (Elt F) → (⟨S16x256, .f32⟩ : BufTy).Contents (Elt F)),
    nary ![main_v6, main_v9, main_v12, main_v15] main_v16 (fun u => concatenate S16x1024 1 [⟨S16x256, u 0⟩, ⟨S16x256, u 1⟩, ⟨S16x256, u 2⟩, ⟨S16x256, u 3⟩] concatenates_S16x256_S16x256_S16x256_S16x256_S16x1024_d1) ]

/-- The next 35 operations: the two dense layers from the means to the gates, reshaped to (16, 4, 256). -/
abbrev opsB : List (HloOp τ sig (Elt F)) :=
  [ unary main_arg1 main_v17 ((transpose S1024x256 [1, 0] · transposes_S256x1024_S1024x256_1_0) : (⟨S256x1024, .f32⟩ : BufTy).Contents (Elt F) → (⟨S1024x256, .f32⟩ : BufTy).Contents (Elt F)),
    binary main_v16 main_v17 main_v18 ((fun l r => Host.dotGeneral dot_S16x1024_S1024x256_S16x256_1_0_0_1_n_n none l r) : (⟨S16x1024, .f32⟩ : BufTy).Contents (Elt F) → (⟨S1024x256, .f32⟩ : BufTy).Contents (Elt F) → (⟨S16x256, .f32⟩ : BufTy).Contents (Elt F)),
    unary main_arg2 main_v19 (broadcastInDim S1x256 ![1] bcast_S256_S1x256_1 : (⟨S256, .f32⟩ : BufTy).Contents (Elt F) → (⟨S1x256, .f32⟩ : BufTy).Contents (Elt F)),
    unary main_v19 main_v20 (broadcastInDim S16x256 ![0, 1] bcast_S1x256_S16x256_0_1 : (⟨S1x256, .f32⟩ : BufTy).Contents (Elt F) → (⟨S16x256, .f32⟩ : BufTy).Contents (Elt F)),
    binary main_v18 main_v20 main_v21 (addf : (⟨S16x256, .f32⟩ : BufTy).Contents (Elt F) → (⟨S16x256, .f32⟩ : BufTy).Contents (Elt F) → (⟨S16x256, .f32⟩ : BufTy).Contents (Elt F)),
    TRef.nullary (TRef.of (T := ⟨S_, .f32⟩) main_call0_cst) (constant S_ .f32 0x00000000#32),
    TRef.unary (TRef.of (T := ⟨S_, .f32⟩) main_call0_cst) (TRef.of (T := ⟨S16x256, .f32⟩) main_call0_v0) (broadcastInDim S16x256 ![] bcast_S_S16x256),
    TRef.binary (TRef.of (T := ⟨S16x256, .f32⟩) main_v21) (TRef.of (T := ⟨S16x256, .f32⟩) main_call0_v0) (TRef.of (T := ⟨S16x256, .f32⟩) main_call0_v1) maximumf,
    TRef.unary (TRef.of (T := ⟨S_, .f32⟩) main_call0_cst) (TRef.of (T := ⟨S16x256, .f32⟩) main_call0_v2) (broadcastInDim S16x256 ![] bcast_S_S16x256),
    TRef.binary (TRef.of (T := ⟨S16x256, .f32⟩) main_v21) (TRef.of (T := ⟨S16x256, .f32⟩) main_call0_v2) (TRef.of (T := ⟨S16x256, .f32⟩) main_call0_v3) subf,
    TRef.binary (TRef.of (T := ⟨S16x256, .f32⟩) main_call0_v3) (TRef.of (T := ⟨S16x256, .f32⟩) main_call0_v3) (TRef.of (T := ⟨S16x256, .i1⟩) main_call0_v4) (cmpf .une),
    TRef.unary (TRef.of (T := ⟨S_, .f32⟩) main_call0_cst) (TRef.of (T := ⟨S16x256, .f32⟩) main_call0_v5) (broadcastInDim S16x256 ![] bcast_S_S16x256),
    TRef.binary (TRef.of (T := ⟨S16x256, .f32⟩) main_v21) (TRef.of (T := ⟨S16x256, .f32⟩) main_call0_v5) (TRef.of (T := ⟨S16x256, .f32⟩) main_call0_v6) addf,
    TRef.unary (TRef.of (T := ⟨S16x256, .f32⟩) main_call0_v3) (TRef.of (T := ⟨S16x256, .f32⟩) main_call0_v7) Host.absf,
    TRef.unary (TRef.of (T := ⟨S16x256, .f32⟩) main_call0_v7) (TRef.of (T := ⟨S16x256, .f32⟩) main_call0_v8) Host.negf,
    TRef.unary (TRef.of (T := ⟨S16x256, .f32⟩) main_call0_v8) (TRef.of (T := ⟨S16x256, .f32⟩) main_call0_v9) Host.exp,
    TRef.unary (TRef.of (T := ⟨S16x256, .f32⟩) main_call0_v9) (TRef.of (T := ⟨S16x256, .f32⟩) main_call0_v10) Host.log1p,
    TRef.binary (TRef.of (T := ⟨S16x256, .f32⟩) main_call0_v1) (TRef.of (T := ⟨S16x256, .f32⟩) main_call0_v10) (TRef.of (T := ⟨S16x256, .f32⟩) main_call0_v11) addf,
    TRef.ternary (TRef.of (T := ⟨S16x256, .i1⟩) main_call0_v4) (TRef.of (T := ⟨S16x256, .f32⟩) main_call0_v6) (TRef.of (T := ⟨S16x256, .f32⟩) main_call0_v11) (TRef.of (T := ⟨S16x256, .f32⟩) main_v22) select,
    unary main_v22 main_v23 (Host.tanh : (⟨S16x256, .f32⟩ : BufTy).Contents (Elt F) → (⟨S16x256, .f32⟩ : BufTy).Contents (Elt F)),
    binary main_v21 main_v23 main_v24 (mulf : (⟨S16x256, .f32⟩ : BufTy).Contents (Elt F) → (⟨S16x256, .f32⟩ : BufTy).Contents (Elt F) → (⟨S16x256, .f32⟩ : BufTy).Contents (Elt F)),
    unary main_arg3 main_v25 ((transpose S256x1024 [1, 0] · transposes_S1024x256_S256x1024_1_0) : (⟨S1024x256, .f32⟩ : BufTy).Contents (Elt F) → (⟨S256x1024, .f32⟩ : BufTy).Contents (Elt F)),
    binary main_v24 main_v25 main_v26 ((fun l r => Host.dotGeneral dot_S16x256_S256x1024_S16x1024_1_0_0_1_n_n none l r) : (⟨S16x256, .f32⟩ : BufTy).Contents (Elt F) → (⟨S256x1024, .f32⟩ : BufTy).Contents (Elt F) → (⟨S16x1024, .f32⟩ : BufTy).Contents (Elt F)),
    unary main_arg4 main_v27 (broadcastInDim S1x1024 ![1] bcast_S1024_S1x1024_1 : (⟨S1024, .f32⟩ : BufTy).Contents (Elt F) → (⟨S1x1024, .f32⟩ : BufTy).Contents (Elt F)),
    unary main_v27 main_v28 (broadcastInDim S16x1024 ![0, 1] bcast_S1x1024_S16x1024_0_1 : (⟨S1x1024, .f32⟩ : BufTy).Contents (Elt F) → (⟨S16x1024, .f32⟩ : BufTy).Contents (Elt F)),
    binary main_v26 main_v28 main_v29 (addf : (⟨S16x1024, .f32⟩ : BufTy).Contents (Elt F) → (⟨S16x1024, .f32⟩ : BufTy).Contents (Elt F) → (⟨S16x1024, .f32⟩ : BufTy).Contents (Elt F)),
    unary main_v29 main_v30 (Host.negf : (⟨S16x1024, .f32⟩ : BufTy).Contents (Elt F) → (⟨S16x1024, .f32⟩ : BufTy).Contents (Elt F)),
    unary main_v30 main_v31 (Host.exp : (⟨S16x1024, .f32⟩ : BufTy).Contents (Elt F) → (⟨S16x1024, .f32⟩ : BufTy).Contents (Elt F)),
    nullary main_cst_7 (constant S_ .f32 0x3F800000#32),
    unary main_cst_7 main_v32 (broadcastInDim S16x1024 ![] bcast_S_S16x1024 : (⟨S_, .f32⟩ : BufTy).Contents (Elt F) → (⟨S16x1024, .f32⟩ : BufTy).Contents (Elt F)),
    binary main_v32 main_v31 main_v33 (addf : (⟨S16x1024, .f32⟩ : BufTy).Contents (Elt F) → (⟨S16x1024, .f32⟩ : BufTy).Contents (Elt F) → (⟨S16x1024, .f32⟩ : BufTy).Contents (Elt F)),
    nullary main_cst_8 (constant S_ .f32 0x3F800000#32),
    unary main_cst_8 main_v34 (broadcastInDim S16x1024 ![] bcast_S_S16x1024 : (⟨S_, .f32⟩ : BufTy).Contents (Elt F) → (⟨S16x1024, .f32⟩ : BufTy).Contents (Elt F)),
    binary main_v34 main_v33 main_v35 (Host.divf : (⟨S16x1024, .f32⟩ : BufTy).Contents (Elt F) → (⟨S16x1024, .f32⟩ : BufTy).Contents (Elt F) → (⟨S16x1024, .f32⟩ : BufTy).Contents (Elt F)),
    reshape main_v35 main_v36 rfl shapeCasts_S16x1024_S16x4x256 ]

/-- The last 20 operations: each quadrant times its gates, and the four products joined. -/
abbrev opsC : List (HloOp τ sig (Elt F)) :=
  [ unary main_v36 main_v37 (broadcastInDim S16x4x256x1x1 ![0, 1, 2] bcast_S16x4x256_S16x4x256x1x1_0_1_2 : (⟨S16x4x256, .f32⟩ : BufTy).Contents (Elt F) → (⟨S16x4x256x1x1, .f32⟩ : BufTy).Contents (Elt F)),
    unary main_v37 main_v38 ((extractStridedSlice S16x1x256x1x1 ![0, 0, 0, 0, 0] · slices_S16x4x256x1x1_S16x1x256x1x1_0_0_0_0_0) : (⟨S16x4x256x1x1, .f32⟩ : BufTy).Contents (Elt F) → (⟨S16x1x256x1x1, .f32⟩ : BufTy).Contents (Elt F)),
    reshape main_v38 main_v39 rfl shapeCasts_S16x1x256x1x1_S16x256x1x1,
    unary main_v39 main_v40 (broadcastInDim S16x256x64x64 ![0, 1, 2, 3] bcast_S16x256x1x1_S16x256x64x64_0_1_2_3 : (⟨S16x256x1x1, .f32⟩ : BufTy).Contents (Elt F) → (⟨S16x256x64x64, .f32⟩ : BufTy).Contents (Elt F)),
    binary main_v0 main_v40 main_v41 (mulf : (⟨S16x256x64x64, .f32⟩ : BufTy).Contents (Elt F) → (⟨S16x256x64x64, .f32⟩ : BufTy).Contents (Elt F) → (⟨S16x256x64x64, .f32⟩ : BufTy).Contents (Elt F)),
    unary main_v37 main_v42 ((extractStridedSlice S16x1x256x1x1 ![0, 1, 0, 0, 0] · slices_S16x4x256x1x1_S16x1x256x1x1_0_1_0_0_0) : (⟨S16x4x256x1x1, .f32⟩ : BufTy).Contents (Elt F) → (⟨S16x1x256x1x1, .f32⟩ : BufTy).Contents (Elt F)),
    reshape main_v42 main_v43 rfl shapeCasts_S16x1x256x1x1_S16x256x1x1,
    unary main_v43 main_v44 (broadcastInDim S16x256x64x64 ![0, 1, 2, 3] bcast_S16x256x1x1_S16x256x64x64_0_1_2_3 : (⟨S16x256x1x1, .f32⟩ : BufTy).Contents (Elt F) → (⟨S16x256x64x64, .f32⟩ : BufTy).Contents (Elt F)),
    binary main_v1 main_v44 main_v45 (mulf : (⟨S16x256x64x64, .f32⟩ : BufTy).Contents (Elt F) → (⟨S16x256x64x64, .f32⟩ : BufTy).Contents (Elt F) → (⟨S16x256x64x64, .f32⟩ : BufTy).Contents (Elt F)),
    binary main_v41 main_v45 main_v46 ((fun a b => concatenate S16x256x64x128 3 [⟨S16x256x64x64, a⟩, ⟨S16x256x64x64, b⟩] concatenates_S16x256x64x64_S16x256x64x64_S16x256x64x128_d3) : (⟨S16x256x64x64, .f32⟩ : BufTy).Contents (Elt F) → (⟨S16x256x64x64, .f32⟩ : BufTy).Contents (Elt F) → (⟨S16x256x64x128, .f32⟩ : BufTy).Contents (Elt F)),
    unary main_v37 main_v47 ((extractStridedSlice S16x1x256x1x1 ![0, 2, 0, 0, 0] · slices_S16x4x256x1x1_S16x1x256x1x1_0_2_0_0_0) : (⟨S16x4x256x1x1, .f32⟩ : BufTy).Contents (Elt F) → (⟨S16x1x256x1x1, .f32⟩ : BufTy).Contents (Elt F)),
    reshape main_v47 main_v48 rfl shapeCasts_S16x1x256x1x1_S16x256x1x1,
    unary main_v48 main_v49 (broadcastInDim S16x256x64x64 ![0, 1, 2, 3] bcast_S16x256x1x1_S16x256x64x64_0_1_2_3 : (⟨S16x256x1x1, .f32⟩ : BufTy).Contents (Elt F) → (⟨S16x256x64x64, .f32⟩ : BufTy).Contents (Elt F)),
    binary main_v2 main_v49 main_v50 (mulf : (⟨S16x256x64x64, .f32⟩ : BufTy).Contents (Elt F) → (⟨S16x256x64x64, .f32⟩ : BufTy).Contents (Elt F) → (⟨S16x256x64x64, .f32⟩ : BufTy).Contents (Elt F)),
    unary main_v37 main_v51 ((extractStridedSlice S16x1x256x1x1 ![0, 3, 0, 0, 0] · slices_S16x4x256x1x1_S16x1x256x1x1_0_3_0_0_0) : (⟨S16x4x256x1x1, .f32⟩ : BufTy).Contents (Elt F) → (⟨S16x1x256x1x1, .f32⟩ : BufTy).Contents (Elt F)),
    reshape main_v51 main_v52 rfl shapeCasts_S16x1x256x1x1_S16x256x1x1,
    unary main_v52 main_v53 (broadcastInDim S16x256x64x64 ![0, 1, 2, 3] bcast_S16x256x1x1_S16x256x64x64_0_1_2_3 : (⟨S16x256x1x1, .f32⟩ : BufTy).Contents (Elt F) → (⟨S16x256x64x64, .f32⟩ : BufTy).Contents (Elt F)),
    binary main_v3 main_v53 main_v54 (mulf : (⟨S16x256x64x64, .f32⟩ : BufTy).Contents (Elt F) → (⟨S16x256x64x64, .f32⟩ : BufTy).Contents (Elt F) → (⟨S16x256x64x64, .f32⟩ : BufTy).Contents (Elt F)),
    binary main_v50 main_v54 main_v55 ((fun a b => concatenate S16x256x64x128 3 [⟨S16x256x64x64, a⟩, ⟨S16x256x64x64, b⟩] concatenates_S16x256x64x64_S16x256x64x64_S16x256x64x128_d3) : (⟨S16x256x64x64, .f32⟩ : BufTy).Contents (Elt F) → (⟨S16x256x64x64, .f32⟩ : BufTy).Contents (Elt F) → (⟨S16x256x64x128, .f32⟩ : BufTy).Contents (Elt F)),
    binary main_v46 main_v55 main_v56 ((fun a b => concatenate S16x256x128x128 2 [⟨S16x256x64x128, a⟩, ⟨S16x256x64x128, b⟩] concatenates_S16x256x64x128_S16x256x64x128_S16x256x128x128_d2) : (⟨S16x256x64x128, .f32⟩ : BufTy).Contents (Elt F) → (⟨S16x256x64x128, .f32⟩ : BufTy).Contents (Elt F) → (⟨S16x256x128x128, .f32⟩ : BufTy).Contents (Elt F)) ]

/-- The program's operations are the three stages in order. -/
theorem ops_split : (ValueP.ops : List (HloOp τ sig (Elt F))) = opsA ++ (opsB ++ opsC) := rfl

/-- The contents after two lists of operations in a row are the second's after the first's. -/
theorem after_append {Val : EltTy → Type} (l₁ l₂ : List (HloOp τ sig Val)) (V : Valuation τ sig Val) :
    after (l₁ ++ l₂) V = after l₂ (after l₁ V) := by
  induction l₁ generalizing V with
  | nil => rfl
  | cons op l ih => simp only [List.cons_append, after_cons, ih]

variable (V : Valuation τ sig (Elt Ideal))

/-! ## Stage one -/

theorem A_v16 : after opsA V (Proc.devRef .tc main_v16) = refMeans (V (Proc.devRef .tc main_arg0)) := by
  after_results_simp <;> rfl
theorem A_v0 : after opsA V (Proc.devRef .tc main_v0) = quad0 (V (Proc.devRef .tc main_arg0)) := by
  after_results_simp <;> rfl
theorem A_v1 : after opsA V (Proc.devRef .tc main_v1) = quad1 (V (Proc.devRef .tc main_arg0)) := by
  after_results_simp <;> rfl
theorem A_v2 : after opsA V (Proc.devRef .tc main_v2) = quad2 (V (Proc.devRef .tc main_arg0)) := by
  after_results_simp <;> rfl
theorem A_v3 : after opsA V (Proc.devRef .tc main_v3) = quad3 (V (Proc.devRef .tc main_arg0)) := by
  after_results_simp <;> rfl
theorem A_arg1 : after opsA V (Proc.devRef .tc main_arg1) = V (Proc.devRef .tc main_arg1) := by
  after_results_simp <;> rfl
theorem A_arg2 : after opsA V (Proc.devRef .tc main_arg2) = V (Proc.devRef .tc main_arg2) := by
  after_results_simp <;> rfl
theorem A_arg3 : after opsA V (Proc.devRef .tc main_arg3) = V (Proc.devRef .tc main_arg3) := by
  after_results_simp <;> rfl
theorem A_arg4 : after opsA V (Proc.devRef .tc main_arg4) = V (Proc.devRef .tc main_arg4) := by
  after_results_simp <;> rfl

/-! ## Stage two -/

theorem B_v36 : after opsB V (Proc.devRef .tc main_v36)
    = shapeCast S16x4x256 (Cert.QuadGate.glue (F := Ideal) (V (Proc.devRef .tc main_v16)) (V (Proc.devRef .tc main_arg1))
        (V (Proc.devRef .tc main_arg2)) (V (Proc.devRef .tc main_arg3)) (V (Proc.devRef .tc main_arg4))) shapeCasts_S16x1024_S16x4x256 := by
  after_results_simp <;> rfl
theorem B_v0 : after opsB V (Proc.devRef .tc main_v0) = V (Proc.devRef .tc main_v0) := by
  after_results_simp <;> rfl
theorem B_v1 : after opsB V (Proc.devRef .tc main_v1) = V (Proc.devRef .tc main_v1) := by
  after_results_simp <;> rfl
theorem B_v2 : after opsB V (Proc.devRef .tc main_v2) = V (Proc.devRef .tc main_v2) := by
  after_results_simp <;> rfl
theorem B_v3 : after opsB V (Proc.devRef .tc main_v3) = V (Proc.devRef .tc main_v3) := by
  after_results_simp <;> rfl

/-! ## Stage three -/

theorem C_v56 : after opsC V (Proc.devRef .tc main_v56)
    = refFinal (V (Proc.devRef .tc main_v0)) (V (Proc.devRef .tc main_v1)) (V (Proc.devRef .tc main_v2)) (V (Proc.devRef .tc main_v3))
        (V (Proc.devRef .tc main_v36)) := by
  after_results_simp <;> rfl

/-! ## The three together -/

/-- The result's buffer after the whole program, as a function of the five argument buffers. -/
theorem result_fold : after ValueP.ops V (Proc.devRef .tc main_v56)
    = refFinal (quad0 (V (Proc.devRef .tc main_arg0))) (quad1 (V (Proc.devRef .tc main_arg0))) (quad2 (V (Proc.devRef .tc main_arg0)))
        (quad3 (V (Proc.devRef .tc main_arg0)))
        (shapeCast S16x4x256 (Cert.QuadGate.glue (F := Ideal) (refMeans (V (Proc.devRef .tc main_arg0))) (V (Proc.devRef .tc main_arg1))
          (V (Proc.devRef .tc main_arg2)) (V (Proc.devRef .tc main_arg3)) (V (Proc.devRef .tc main_arg4))) shapeCasts_S16x1024_S16x4x256) := by
  rw [ops_split, after_append, after_append, C_v56, B_v36, B_v0, B_v1, B_v2, B_v3, A_v16, A_v0, A_v1, A_v2, A_v3, A_arg1, A_arg2, A_arg3, A_arg4]

/-- No operation writes an argument. -/
theorem arg0_fold : after ValueP.ops V (Proc.devRef .tc main_arg0) = V (Proc.devRef .tc main_arg0) := by
  after_results_simp <;> rfl
theorem arg1_fold : after ValueP.ops V (Proc.devRef .tc main_arg1) = V (Proc.devRef .tc main_arg1) := by
  after_results_simp <;> rfl
theorem arg2_fold : after ValueP.ops V (Proc.devRef .tc main_arg2) = V (Proc.devRef .tc main_arg2) := by
  after_results_simp <;> rfl
theorem arg3_fold : after ValueP.ops V (Proc.devRef .tc main_arg3) = V (Proc.devRef .tc main_arg3) := by
  after_results_simp <;> rfl
theorem arg4_fold : after ValueP.ops V (Proc.devRef .tc main_arg4) = V (Proc.devRef .tc main_arg4) := by
  after_results_simp <;> rfl

end Cert.ReferenceIdeal.Stages

end
-- ==== Proof.Finite.lean ====
/-
  From the precondition to real entries.

  The precondition says that, for each of the five inputs, "|x| < +∞" holds at every entry (a conjunction of five
  all-reductions).  An extended real whose absolute value max(x, −x) is below +∞ is neither infinity, so it is the
  coercion of its real part.  Only the first input's finiteness is used: the lane mask multiplies its sums by 0 and 1.
-/
import proofs.«138559_j55224689492532_2_alg».proof.Pre_finite_inputs
import Idealize.ShloMosaic.PureOps.Ideal
import Idealize.ShloMosaic.PureOps.Ideal.Laws
import Idealize.ShloMosaic.Lib.ReduceAll
import Idealize.ShloMosaic.Lib.ValueIdx

noncomputable section

namespace Cert.Finite

open Idealize.ShloMosaic Cert.Pre_finite_inputs

instance : Subsingleton S_.Idx := ⟨fun a b => funext fun d => d.elim0⟩

/-- The f32 word of +∞ is the extended real ⊤. -/
theorem ofBits_inf : Ideal.ofBits .f32 0x7F800000#32 = (⊤ : EReal) := by
  simp [Ideal.ofBits, Ideal.ieee]

/-- An extended real with max(x, −x) < ⊤ is a real. -/
theorem real_of_abs_lt (x : EReal) (h : max x (-x) < (⊤ : EReal)) : x = ((x.toReal : ℝ) : EReal) := by
  induction x using EReal.rec with
  | bot => simp at h
  | coe r => simp
  | top => simp at h

variable [Facts]

/-- Under the precondition every entry of the first input is a real. -/
theorem input_real (t : FVec Ideal S16x256x128x128 .f32) (a1 : FVec Ideal S256x1024 .f32) (a2 : FVec Ideal S256 .f32)
    (a3 : FVec Ideal S1024x256 .f32) (a4 : FVec Ideal S1024 .f32)
    (h : fn (F := Ideal) t a1 a2 a3 a4 = fun _ => 1#1) (i : S16x256x128x128.Idx) :
    t i = (((t i).toReal : ℝ) : EReal) := by
  have h0 := congrFun h ValueIdx.ix0
  dsimp only [fn, fn_part1] at h0
  have h1 := (IntOp.andi_eq_one.mp h0).1
  have h2 := (IntOp.andi_eq_one.mp h1).1
  have h3 := (IntOp.andi_eq_one.mp h2).1
  have h4 := (IntOp.andi_eq_one.mp h3).1
  have hi := Host.reduce_andi_all _ _ _ _ ValueIdx.ix0 h4 i
  refine real_of_abs_lt (t i) ?_
  have hc : BitVec.ofBool (decide (max (t i) (-(t i)) < Ideal.ofBits .f32 0x7F800000#32)) = 1#1 := hi
  rw [ofBits_inf] at hc
  cases hd : decide (max (t i) (-(t i)) < (⊤ : EReal)) with
  | true => exact of_decide_eq_true hd
  | false => rw [hd] at hc; exact absurd hc (by decide)

end Cert.Finite

end
-- ==== Proof.Assemble.lean ====
/-
  The claims, assembled.

  The three frames: the two kernel programs' come from the pipeline library's launch theorem over their segments; the
  reference's is its run with the result dropped.
  The algebraic claim: both idealized programs, run from memories agreeing on the arguments, end with the result buffer
  at `G` of the arguments — the kernel program by its two launches' write-backs and the host stretch between them, the
  reference by its three stages — given what the two kernel bodies leave in a block and how the reference's joined
  quadrants and joined means read at an index.
-/
import proofs.«138559_j55224689492532_2_alg».proof.Defs
import proofs.«138559_j55224689492532_2_alg».proof.Proof.Gen.Kernel.Frame
import proofs.«138559_j55224689492532_2_alg».proof.Proof.Gen.KernelIdeal.Frame
import proofs.«138559_j55224689492532_2_alg».proof.Proof.Gen.ReferenceIdeal
import proofs.«138559_j55224689492532_2_alg».proof.Proof.Gen.Pre_finite_inputs
import proofs.«138559_j55224689492532_2_alg».proof.Proof.Spec
import proofs.«138559_j55224689492532_2_alg».proof.Proof.KRun
import proofs.«138559_j55224689492532_2_alg».proof.Proof.KValue
import proofs.«138559_j55224689492532_2_alg».proof.Proof.RefRun
import proofs.«138559_j55224689492532_2_alg».proof.Proof.RefStages
import proofs.«138559_j55224689492532_2_alg».proof.Proof.Finite

noncomputable section

namespace Cert.Proof.Assemble

open Idealize.ShloMosaic Idealize.ShloMosaic.TcCoe Idealize.SL.Sem Idealize.ShloMosaic.StableHlo
open Cert.QuadGate

theorem frame_k : Cert.frame_Kernel := fun m ρ _ => Cert.Kernel.Gen.frame m ρ

theorem frame_ki : Cert.frame_KernelIdeal := fun m ρ _ => Cert.KernelIdeal.Gen.frame m ρ

/-- The reference's run leaves every argument where no operation writes: as launched. -/
theorem frame_ri : Cert.frame_ReferenceIdeal := fun m ρ _ =>
  (θ_run Cert.ReferenceIdeal.defs _ _).mono (fun _ h c =>
    ⟨(h c Cert.ReferenceIdeal.main_arg0).trans (Cert.ReferenceIdeal.Stages.arg0_fold (launchContents m c)),
     (h c Cert.ReferenceIdeal.main_arg1).trans (Cert.ReferenceIdeal.Stages.arg1_fold (launchContents m c)),
     (h c Cert.ReferenceIdeal.main_arg2).trans (Cert.ReferenceIdeal.Stages.arg2_fold (launchContents m c)),
     (h c Cert.ReferenceIdeal.main_arg3).trans (Cert.ReferenceIdeal.Stages.arg3_fold (launchContents m c)),
     (h c Cert.ReferenceIdeal.main_arg4).trans (Cert.ReferenceIdeal.Stages.arg4_fold (launchContents m c))⟩)
    (Cert.ReferenceIdeal.ValueP.run (F := Ideal) m ρ)

/-- How the reference's joined gated quadrants read at an index. -/
def RefFinalApply : Prop :=
  ∀ (t : FVec Ideal Cert.ReferenceIdeal.S16x256x128x128 .f32) (g : FVec Ideal Cert.ReferenceIdeal.S16x1024 .f32)
    (i : Cert.ReferenceIdeal.S16x256x128x128.Idx),
    Cert.ReferenceIdeal.Terms.refFinal (Cert.ReferenceIdeal.Terms.quad0 t) (Cert.ReferenceIdeal.Terms.quad1 t)
      (Cert.ReferenceIdeal.Terms.quad2 t) (Cert.ReferenceIdeal.Terms.quad3 t)
      (shapeCast Cert.ReferenceIdeal.S16x4x256 g Cert.ReferenceIdeal.Gen.shapeCasts_S16x1024_S16x4x256) i = t i * g (gateIdx i)

/-- The reference's joined means on a finite input. -/
def RefMeansEq : Prop :=
  ∀ (t : FVec Ideal Cert.ReferenceIdeal.S16x256x128x128 .f32), (∀ i, t i = (((t i).toReal : ℝ) : EReal)) →
    Cert.ReferenceIdeal.Terms.refMeans t = meanArr t

theorem algebraic (hmeans : Cert.KernelIdeal.Region0.MeansBlock) (hgated : Cert.KernelIdeal.Region1.GatedBlock)
    (hfinal : RefFinalApply) (hrmeans : RefMeansEq) : Cert.algebraic_KernelIdeal_ReferenceIdeal := by
  intro m ρ m' ρ' hpre hagree
  have hfin : ∀ (c : Dev Cert.KernelIdeal.nD) i,
      (m ((c.tc : Thread Cert.KernelIdeal.nD Cert.KernelIdeal.τ).loc Cert.KernelIdeal.main_arg0) : Cert.KernelIdeal.S16x256x128x128.Idx → EReal) i
        = ((((m ((c.tc : Thread Cert.KernelIdeal.nD Cert.KernelIdeal.τ).loc Cert.KernelIdeal.main_arg0) : Cert.KernelIdeal.S16x256x128x128.Idx → EReal) i).toReal : ℝ) : EReal) :=
    fun c i => Cert.Finite.input_real _ _ _ _ _ (hpre c) i
  refine ⟨fun c => G (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4)), ?_, ?_⟩
  · exact (θ_run Cert.KernelIdeal.defs _ _).mono
      (fun r h c => ⟨(h c).1.trans (Cert.KernelIdeal.Whole.result_eq m ρ c (hfin c) hmeans hgated), (h c).2⟩)
      (Cert.KernelIdeal.RunValue.run_named (F := Ideal) m ρ)
  · refine (θ_run Cert.ReferenceIdeal.defs _ _).mono (fun r h c =>
      ⟨(h c Cert.ReferenceIdeal.main_v56).trans ((Cert.ReferenceIdeal.Stages.result_fold (launchContents m' c)).trans ?_),
       (h c Cert.ReferenceIdeal.main_arg0).trans (Cert.ReferenceIdeal.Stages.arg0_fold (launchContents m' c)),
       (h c Cert.ReferenceIdeal.main_arg1).trans (Cert.ReferenceIdeal.Stages.arg1_fold (launchContents m' c)),
       (h c Cert.ReferenceIdeal.main_arg2).trans (Cert.ReferenceIdeal.Stages.arg2_fold (launchContents m' c)),
       (h c Cert.ReferenceIdeal.main_arg3).trans (Cert.ReferenceIdeal.Stages.arg3_fold (launchContents m' c)),
       (h c Cert.ReferenceIdeal.main_arg4).trans (Cert.ReferenceIdeal.Stages.arg4_fold (launchContents m' c))⟩)
      (Cert.ReferenceIdeal.ValueP.run (F := Ideal) m' ρ')
    have e0 : launchContents m' c (Proc.devRef .tc Cert.ReferenceIdeal.main_arg0)
        = m ((c.tc : Thread Cert.KernelIdeal.nD Cert.KernelIdeal.τ).loc Cert.KernelIdeal.main_arg0) := (hagree c).1
    have e1 : launchContents m' c (Proc.devRef .tc Cert.ReferenceIdeal.main_arg1)
        = m ((c.tc : Thread Cert.KernelIdeal.nD Cert.KernelIdeal.τ).loc Cert.KernelIdeal.main_arg1) := (hagree c).2.1
    have e2 : launchContents m' c (Proc.devRef .tc Cert.ReferenceIdeal.main_arg2)
        = m ((c.tc : Thread Cert.KernelIdeal.nD Cert.KernelIdeal.τ).loc Cert.KernelIdeal.main_arg2) := (hagree c).2.2.1
    have e3 : launchContents m' c (Proc.devRef .tc Cert.ReferenceIdeal.main_arg3)
        = m ((c.tc : Thread Cert.KernelIdeal.nD Cert.KernelIdeal.τ).loc Cert.KernelIdeal.main_arg3) := (hagree c).2.2.2.1
    have e4 : launchContents m' c (Proc.devRef .tc Cert.ReferenceIdeal.main_arg4)
        = m ((c.tc : Thread Cert.KernelIdeal.nD Cert.KernelIdeal.τ).loc Cert.KernelIdeal.main_arg4) := (hagree c).2.2.2.2
    rw [e0, e1, e2, e3, e4, hrmeans _ (hfin c)]
    funext i
    exact hfinal _ _ i

end Cert.Proof.Assemble

end
-- ==== Proof.KBody.lean ====
/-
  What the two kernel bodies leave in their output blocks, read at an index, at the ideal instance (floats are extended
  reals).

  The second kernel multiplies each half (rows 0..63, rows 64..127) of a (1, 128, 128, 128) input block by a gate map
  that is constant along rows: at channel p and column w the gate of quadrant 2·(row half) + (column half) and channel
  p, read off a (1, 4, 128) gate block. The first kernel fills the (1, 4, 128) means block: row q is, per channel, the
  sum of the entries of quadrant q (a sum over the 64 rows of a half, then a sum over all 128 columns against a 0/1
  mask of the column half), times 2⁻¹².
-/
import proofs.«138559_j55224689492532_2_alg».proof.Proof.Gen.KernelIdeal.Frame
import proofs.«138559_j55224689492532_2_alg».proof.Proof.Spec
import Idealize.ShloMosaic.Lib.ValueIdx
import Idealize.ShloMosaic.Lib.Pipeline.Value
import Idealize.ShloMosaic.Lib.ValueLayout
import Idealize.ShloMosaic.PureOps.Ideal.Laws
noncomputable section
namespace Cert.KernelIdeal.Body
open Idealize.ShloMosaic Cert.KernelIdeal Cert.KernelIdeal.Gen Cert.QuadGate

/-- The signed comparison "column number below 64" as a one-bit word, for every column of a 128-wide block. -/
theorem lane_lt (w : Fin 128) :
    IntOp.cmpi .slt (BitVec.ofNat 32 w.val) 64#32 = if w.val < 64 then 1#1 else 0#1 := by
  revert w; decide

/-- Row q of the (4, 128) gate block, spread down the 128 columns of a [128, 128] map: entry (p, w) is the gate of
    quadrant q and channel p. -/
theorem gate_col (v0 : Vec Ideal S1x4x128 .f32) (q : Nat) (hq : q < 4) (hs : S4x128.Slices ![q, 0] S1x128)
    (j : S128x128.Idx) :
    broadcastTo S128x128
      (shapeCast S128x1
        (shapeCast S128x1
          (shapeCast S128 (extractStridedSlice S1x128 ![q, 0] (k1_pay1 v0) hs) shapeCasts_S1x128_S128)
          shapeCasts_S128_S128x1)
        shapeCasts_S128x1_S128x1)
      broadcasts_S128x1_S128x128 j
      = v0 (blk3 q (j 0).val hq (j 0).isLt) := by
  have h0 : (j 0).val < 128 := (j 0).isLt
  -- the broadcast along the columns: (p, w) reads (p, 0)
  refine (broadcastTo_apply _ _ j (fun a => match a with | ⟨0, _⟩ => ⟨(j 0).val, h0⟩ | ⟨1, _⟩ => ⟨0, Nat.one_pos⟩)
    (fun a => match a with
      | ⟨0, _⟩ => by show (j 0).val = if (128 : Nat) = 1 then 0 else (j 0).val; rfl
      | ⟨1, _⟩ => by show (0 : Nat) = if (1 : Nat) = 1 then 0 else (j 1).val; rfl)).trans ?_
  rw [shapeCast_self]
  -- [128] viewed [128, 1]: (p, 0) reads p
  refine (shapeCast_apply _ _ _ (fun a => match a with | ⟨0, _⟩ => ⟨(j 0).val, h0⟩)
    (by rw [Shape.rowMajor_val_one, Shape.rowMajor_val_two]
        show (j 0).val = (j 0).val * 1 + 0
        omega)).trans ?_
  -- [1, 128] viewed [128]: p reads (0, p)
  refine (shapeCast_apply _ _ _ (fun a => match a with | ⟨0, _⟩ => ⟨0, Nat.one_pos⟩ | ⟨1, _⟩ => ⟨(j 0).val, h0⟩)
    (by rw [Shape.rowMajor_val_two, Shape.rowMajor_val_one]
        show 0 * 128 + (j 0).val = (j 0).val
        omega)).trans ?_
  -- the slice at row q: (0, p) reads (q, p)
  refine (extractStridedSlice_apply _ _ _ _ (fun a => match a with | ⟨0, _⟩ => ⟨q, hq⟩ | ⟨1, _⟩ => ⟨(j 0).val, h0⟩)
    (fun a => match a with
      | ⟨0, _⟩ => by show q = q + 0; omega
      | ⟨1, _⟩ => by show (j 0).val = 0 + (j 0).val; omega)).trans ?_
  -- the (1, 4, 128) block viewed (4, 128): (q, p) reads (0, q, p)
  unfold k1_pay1
  refine (shapeCast_apply _ _ _ (blk3 q (j 0).val hq h0)
    (by rw [Shape.rowMajor_val_three, Shape.rowMajor_val_two]
        show (0 * 4 + q) * 128 + (j 0).val = q * 128 + (j 0).val
        omega)).trans ?_
  rfl

/-- The one-bit mask of the left half of the columns, at entry (p, w): set exactly when w < 64. -/
theorem lane_mask (j : S128x128.Idx) : k1_pay2 j = if (j 1).val < 64 then 1#1 else 0#1 := by
  have h1 : (j 1).val < 128 := (j 1).isLt
  unfold k1_pay2
  show IntOp.cmpi .slt (iota .tc S128x128 32 [1] iota_S128x128_d1_w32 j) 64#32 = _
  rw [iota_single_apply]
  exact lane_lt ⟨(j 1).val, h1⟩

/-- The gate map of one half of the rows: a select between two rows of the gate block by the column half. -/
theorem gate_map (a b : S128x128.Idx → EReal) (j : S128x128.Idx) :
    select k1_pay2 a b j = if (j 1).val < 64 then a j else b j := by
  rw [ValueIdx.select_apply, lane_mask]
  by_cases h : (j 1).val < 64
  · rw [if_pos h, if_pos h]; exact ValueIdx.select_one _ _
  · rw [if_neg h, if_neg h]; exact ValueIdx.select_zero _ _

/-- A [128, 128] map spread over the 64 rows of a half block: entry (0, p, h, w) reads the map at (p, w). -/
theorem rows_bcast (g : S128x128.Idx → EReal) (x : S1x128x64x128.Idx) :
    broadcastTo S1x128x64x128 (shapeCast S1x128x1x128 g shapeCasts_S128x128_S1x128x1x128)
      broadcasts_S1x128x1x128_S1x128x64x128 x
      = g (ValueIdx.ix2 ⟨(x 1).val, (x 1).isLt⟩ ⟨(x 3).val, (x 3).isLt⟩) := by
  have h1 : (x 1).val < 128 := (x 1).isLt
  have h3 : (x 3).val < 128 := (x 3).isLt
  refine (broadcastTo_apply _ _ x (fun a => match a with
      | ⟨0, _⟩ => ⟨0, Nat.one_pos⟩ | ⟨1, _⟩ => ⟨(x 1).val, h1⟩ | ⟨2, _⟩ => ⟨0, Nat.one_pos⟩ | ⟨3, _⟩ => ⟨(x 3).val, h3⟩)
    (fun a => match a with
      | ⟨0, _⟩ => by show (0 : Nat) = if (1 : Nat) = 1 then 0 else (x 0).val; rfl
      | ⟨1, _⟩ => by show (x 1).val = if (128 : Nat) = 1 then 0 else (x 1).val; rfl
      | ⟨2, _⟩ => by show (0 : Nat) = if (1 : Nat) = 1 then 0 else (x 2).val; rfl
      | ⟨3, _⟩ => by show (x 3).val = if (128 : Nat) = 1 then 0 else (x 3).val; rfl)).trans ?_
  exact shapeCast_apply _ _ _ _
    (by rw [Shape.rowMajor_val_two, Shape.rowMajor_val_four]
        show (x 1).val * 128 + (x 3).val = (((0 * 128 + (x 1).val) * 1 + 0) * 128 + (x 3).val)
        omega)

/-- The upper half's payload at (0, p, h, w): the loaded entry times the gate of quadrant w / 64 and channel p. -/
theorem pay3_apply (v0 : Vec Ideal S1x4x128 .f32) (v27 : Vec Ideal S1x128x64x128 .f32) (x : S1x128x64x128.Idx) :
    k1_pay3 v0 v27 x
      = v27 x * v0 (blk3 ((x 3).val / 64) (x 1).val (by have h3 : (x 3).val < 128 := (x 3).isLt; show _ < 4; omega) (x 1).isLt) := by
  have h3 : (x 3).val < 128 := (x 3).isLt
  unfold k1_pay3
  refine (ValueIdx.mulf_apply _ _ x).trans ?_
  congr 1
  refine (rows_bcast _ x).trans ?_
  refine (gate_map _ _ _).trans ?_
  by_cases h : (x 3).val < 64
  · rw [if_pos (show ((ValueIdx.ix2 (⟨(x 1).val, (x 1).isLt⟩ : Fin 128) (⟨(x 3).val, (x 3).isLt⟩ : Fin 128)) 1).val < 64 from h)]
    refine (gate_col v0 0 (by omega) _ _).trans ?_
    congr 1; funext a
    match a with
    | ⟨0, _⟩ => rfl
    | ⟨1, _⟩ => apply Fin.ext; show 0 = (x 3).val / 64; omega
    | ⟨2, _⟩ => rfl
  · rw [if_neg (show ¬ ((ValueIdx.ix2 (⟨(x 1).val, (x 1).isLt⟩ : Fin 128) (⟨(x 3).val, (x 3).isLt⟩ : Fin 128)) 1).val < 64 from h)]
    refine (gate_col v0 1 (by omega) _ _).trans ?_
    congr 1; funext a
    match a with
    | ⟨0, _⟩ => rfl
    | ⟨1, _⟩ => apply Fin.ext; show 1 = (x 3).val / 64; omega
    | ⟨2, _⟩ => rfl

/-- The lower half's payload at (0, p, h, w): the loaded entry times the gate of quadrant 2 + w / 64 and channel p. -/
theorem pay4_apply (v0 : Vec Ideal S1x4x128 .f32) (v32 : Vec Ideal S1x128x64x128 .f32) (x : S1x128x64x128.Idx) :
    k1_pay4 v0 v32 x
      = v32 x * v0 (blk3 (2 + (x 3).val / 64) (x 1).val (by have h3 : (x 3).val < 128 := (x 3).isLt; show _ < 4; omega) (x 1).isLt) := by
  have h3 : (x 3).val < 128 := (x 3).isLt
  unfold k1_pay4
  refine (ValueIdx.mulf_apply _ _ x).trans ?_
  congr 1
  refine (rows_bcast _ x).trans ?_
  refine (gate_map _ _ _).trans ?_
  by_cases h : (x 3).val < 64
  · rw [if_pos (show ((ValueIdx.ix2 (⟨(x 1).val, (x 1).isLt⟩ : Fin 128) (⟨(x 3).val, (x 3).isLt⟩ : Fin 128)) 1).val < 64 from h)]
    refine (gate_col v0 2 (by omega) _ _).trans ?_
    congr 1; funext a
    match a with
    | ⟨0, _⟩ => rfl
    | ⟨1, _⟩ => apply Fin.ext; show 2 = 2 + (x 3).val / 64; omega
    | ⟨2, _⟩ => rfl
  · rw [if_neg (show ¬ ((ValueIdx.ix2 (⟨(x 1).val, (x 1).isLt⟩ : Fin 128) (⟨(x 3).val, (x 3).isLt⟩ : Fin 128)) 1).val < 64 from h)]
    refine (gate_col v0 3 (by omega) _ _).trans ?_
    congr 1; funext a
    match a with
    | ⟨0, _⟩ => rfl
    | ⟨1, _⟩ => apply Fin.ext; show 3 = 2 + (x 3).val / 64; omega
    | ⟨2, _⟩ => rfl

/-- Under the store of the lower half (rows 64..127), made last, the block holds its payload. -/
theorem canon2_hi (P0 P1 : Vec Ideal S1x128x64x128 .f32) (x : S1x128x64x128.Idx) :
    View.canon [(⟨r1_2, P0⟩ : View.Piece (Elt Ideal) S1x128x128x128 .f32), ⟨r1_1, P1⟩] (r1_2.emb x) = P0 x :=
  View.canon_cons_emb r1_2 P0 _ x

/-- Under the store of the upper half (rows 0..63), which the later store does not touch, the block holds its payload. -/
theorem canon2_lo (P0 P1 : Vec Ideal S1x128x64x128 .f32) (x : S1x128x64x128.Idx) :
    View.canon [(⟨r1_2, P0⟩ : View.Piece (Elt Ideal) S1x128x128x128 .f32), ⟨r1_1, P1⟩] (r1_1.emb x) = P1 x := by
  have h2 : (x 2).val < 64 := (x 2).isLt
  have hnot : r1_1.emb x ∉ r1_2.set := by
    rw [Rect.mem_set_unit]
    intro hm
    have h2' : 64 ≤ 0 + 1 * (x 2).val := (hm (2 : Fin 4)).1
    omega
  refine (View.canon_cons_of_not_mem (⟨r1_2, P0⟩ : View.Piece (Elt Ideal) S1x128x128x128 .f32) _ hnot).trans ?_
  exact View.canon_cons_emb r1_1 P1 [] x

/-- the second kernel: block entry (0, p, h, w) of the output block is the input entry times the gate of its quadrant and channel -/
theorem gated_block (x0 : Vec Ideal S1x128x128x128 .f32) (x1 : Vec Ideal S1x4x128 .f32) (p h w : Nat) (hp : p < 128) (hh : h < 128) (hw : w < 128) :
    Gen.out1_2 (F := Ideal) x0 x1 (blk4 p h w hp hh hw)
      = x0 (blk4 p h w hp hh hw) * x1 (blk3 (2 * (h / 64) + w / 64) p (by omega) hp) := by
  unfold out1_2
  by_cases h64 : h < 64
  · -- rows 0..63 are under the first store only
    have e : blk4 p h w hp hh hw
        = r1_1.emb (ValueIdx.ix4 (⟨0, Nat.one_pos⟩ : Fin 1) (⟨p, hp⟩ : Fin 128) (⟨h, h64⟩ : Fin 64) (⟨w, hw⟩ : Fin 128)) := by
      funext a
      match a with
      | ⟨0, _⟩ => apply Fin.ext; show 0 = 0 + 1 * 0; omega
      | ⟨1, _⟩ => apply Fin.ext; show p = 0 + 1 * p; omega
      | ⟨2, _⟩ => apply Fin.ext; show h = 0 + 1 * h; omega
      | ⟨3, _⟩ => apply Fin.ext; show w = 0 + 1 * w; omega
    refine (congrArg _ e).trans ?_
    refine (canon2_lo _ _ _).trans ?_
    refine (pay3_apply _ _ _).trans ?_
    congr 1
    · exact congrArg x0 e.symm
    · show x1 (r1_0.idx _) = _
      congr 1; funext a
      match a with
      | ⟨0, _⟩ => apply Fin.ext; show 0 + 1 * 0 = 0; omega
      | ⟨1, _⟩ => apply Fin.ext; show 0 + 1 * (w / 64) = 2 * (h / 64) + w / 64; omega
      | ⟨2, _⟩ => apply Fin.ext; show 0 + 1 * p = p; omega
  · -- rows 64..127 are under the last store
    have e : blk4 p h w hp hh hw
        = r1_2.emb (ValueIdx.ix4 (⟨0, Nat.one_pos⟩ : Fin 1) (⟨p, hp⟩ : Fin 128) (⟨h - 64, by omega⟩ : Fin 64) (⟨w, hw⟩ : Fin 128)) := by
      funext a
      match a with
      | ⟨0, _⟩ => apply Fin.ext; show 0 = 0 + 1 * 0; omega
      | ⟨1, _⟩ => apply Fin.ext; show p = 0 + 1 * p; omega
      | ⟨2, _⟩ => apply Fin.ext; show h = 64 + 1 * (h - 64); omega
      | ⟨3, _⟩ => apply Fin.ext; show w = 0 + 1 * w; omega
    refine (congrArg _ e).trans ?_
    refine (canon2_hi _ _ _).trans ?_
    refine (pay4_apply _ _ _).trans ?_
    congr 1
    · exact congrArg x0 e.symm
    · show x1 (r1_0.idx _) = _
      congr 1; funext a
      match a with
      | ⟨0, _⟩ => apply Fin.ext; show 0 + 1 * 0 = 0; omega
      | ⟨1, _⟩ => apply Fin.ext; show 0 + 1 * (2 + w / 64) = 2 * (h / 64) + w / 64; omega
      | ⟨2, _⟩ => apply Fin.ext; show 0 + 1 * p = p; omega

/-! ## The first kernel -/

/-- The coercion of a finite sum of reals is the sum of the coercions. -/
theorem coe_sum {ι : Type} (s : Finset ι) (f : ι → ℝ) :
    ((∑ i ∈ s, f i : ℝ) : EReal) = ∑ i ∈ s, ((f i : ℝ) : EReal) := by
  classical
  refine Finset.induction_on s (by simp) ?_
  intro a s ha ih
  rw [Finset.sum_insert ha, Finset.sum_insert ha, EReal.coe_add, ih]

/-- A sum over 128 columns against the 0/1 mask of the left half is the sum over the first 64 columns. -/
theorem half_left (g : Fin 128 → ℝ) :
    ∑ w : Fin 128, g w * (if w.val < 64 then (1 : ℝ) else 0)
      = ∑ w : Fin 64, g ⟨w.val, by have h := w.isLt; omega⟩ := by
  have e := Fin.sum_univ_add (M := ℝ) (a := 64) (b := 64)
    (fun w : Fin (64 + 64) => g w * (if w.val < 64 then (1 : ℝ) else 0))
  refine e.trans ?_
  have h2 : ∑ i : Fin 64, g (Fin.natAdd 64 i) * (if (Fin.natAdd 64 i).val < 64 then (1 : ℝ) else 0) = 0 := by
    refine Finset.sum_eq_zero fun i _ => ?_
    rw [if_neg (by show ¬ (64 + i.val < 64); omega), mul_zero]
  rw [h2, add_zero]
  refine Finset.sum_congr rfl fun i _ => ?_
  rw [if_pos (by show i.val < 64; exact i.isLt), mul_one]
  exact congrArg g (Fin.ext rfl)

/-- Against the complementary mask it is the sum over the last 64 columns. -/
theorem half_right (g : Fin 128 → ℝ) :
    ∑ w : Fin 128, g w * (1 - (if w.val < 64 then (1 : ℝ) else 0))
      = ∑ w : Fin 64, g ⟨64 + w.val, by have h := w.isLt; omega⟩ := by
  have e := Fin.sum_univ_add (M := ℝ) (a := 64) (b := 64)
    (fun w : Fin (64 + 64) => g w * (1 - (if w.val < 64 then (1 : ℝ) else 0)))
  refine e.trans ?_
  have h1 : ∑ i : Fin 64, g (Fin.castAdd 64 i) * (1 - (if (Fin.castAdd 64 i).val < 64 then (1 : ℝ) else 0)) = 0 := by
    refine Finset.sum_eq_zero fun i _ => ?_
    rw [if_pos (by show i.val < 64; exact i.isLt), sub_self, mul_zero]
  rw [h1, zero_add]
  refine Finset.sum_congr rfl fun i _ => ?_
  rw [if_neg (by show ¬ (64 + i.val < 64); omega), sub_zero, mul_one]
  exact congrArg g (Fin.ext rfl)

/-- The f32 word 0x39800000 is 2⁻¹² = 1 / 4096. -/
theorem ofBits_inv4096 : Ideal.ofBits .f32 0x39800000#32 = (((1 / 4096 : ℝ)) : EReal) := by
  simp [Ideal.ofBits, Ideal.ieee, -EReal.coe_mul]; norm_num

/-- The f32 word 0x3F800000 is 1. -/
theorem ofBits_one : Ideal.ofBits .f32 0x3F800000#32 = (((1 : ℝ)) : EReal) := by
  simp [Ideal.ofBits, Ideal.ieee, -EReal.coe_mul]; norm_num

/-- The lane mask at (p, w): 1 on the left half of the columns, 0 on the right half. -/
theorem mask_apply (j : S128x128.Idx) :
    k0_pay3 (F := Ideal) j = (((if (j 1).val < 64 then (1 : ℝ) else 0 : ℝ)) : EReal) := by
  have h1 : (j 1).val < 128 := (j 1).isLt
  unfold k0_pay3
  show ((((IntOp.cmpi .slt (iota .tc S128x128 32 [1] iota_S128x128_d1_w32 j) 64#32).setWidth 32).toInt : ℝ) : EReal) = _
  rw [iota_single_apply, lane_lt ⟨(j 1).val, h1⟩]
  by_cases h : (j 1).val < 64
  · rw [if_pos h, if_pos h, show ((1#1 : BitVec 1).setWidth 32).toInt = 1 by decide]; norm_num
  · rw [if_neg h, if_neg h, show ((0#1 : BitVec 1).setWidth 32).toInt = 0 by decide]; norm_num

/-- Its complement at (p, w): 0 on the left half of the columns, 1 on the right half. -/
theorem cmask_apply (j : S128x128.Idx) :
    k0_pay4 (F := Ideal) j = (((1 - (if (j 1).val < 64 then (1 : ℝ) else 0) : ℝ)) : EReal) := by
  unfold k0_pay4
  show Ideal.ofBits .f32 0x3F800000#32 - k0_pay3 (F := Ideal) j = _
  rw [ofBits_one, mask_apply, ← EReal.coe_sub]

/-- The sum over the 64 rows of a loaded half block: entry (p, w) is the sum over h of the entries (0, p, h, w). -/
theorem colsum_apply (v : Vec Ideal S1x128x64x128 .f32) (vr : S1x128x64x128.Idx → ℝ)
    (hv : ∀ y, v y = ((vr y : ℝ) : EReal)) (j : S128x128.Idx) :
    k0_pay5 v j = (((∑ k : Fin 64, vr (ValueIdx.ix4 (⟨0, Nat.one_pos⟩ : Fin 1) (⟨(j 0).val, (j 0).isLt⟩ : Fin 128) k
      (⟨(j 1).val, (j 1).isLt⟩ : Fin 128)) : ℝ)) : EReal) := by
  have h0 : (j 0).val < 128 := (j 0).isLt
  have h1 : (j 1).val < 128 := (j 1).isLt
  unfold k0_pay5
  refine (Ideal.multiReduction_add_single _ _ reduces_S128x64x128_S128x128 _ _ j).trans ?_
  rw [coe_sum]
  refine Finset.sum_congr rfl fun k _ => ?_
  have hk : k.val < 64 := k.isLt
  refine (shapeCast_apply _ _ _ (ValueIdx.ix4 (⟨0, Nat.one_pos⟩ : Fin 1) (⟨(j 0).val, h0⟩ : Fin 128) (⟨k.val, hk⟩ : Fin 64)
      (⟨(j 1).val, h1⟩ : Fin 128))
    (by rw [Shape.rowMajor_val_four, Shape.rowMajor_val_three]
        show ((0 * 128 + (j 0).val) * 64 + k.val) * 128 + (j 1).val = ((j 0).val * 64 + k.val) * 128 + (j 1).val
        omega)).trans ?_
  exact hv _

/-- The second half of a row's payload: a [128, 128] map of row sums times a [128, 128] mask, summed over the 128
    columns, times 2⁻¹², stored as a [1, 1, 128] row. -/
def meanTail (s m : FVec Ideal S128x128 .f32) : FVec Ideal S1x1x128 .f32 :=
  shapeCast S1x1x128
    (mulf (multiReduction (F := Ideal) .add [1] S128 (mulf s m) 0x00000000#32 reduces_S128x128_S128 (.inl rfl) rfl)
      (broadcast S128 (Scalar.ofBits (F := Ideal) .f32 0x39800000#32)))
    shapeCasts_S128_S1x1x128

theorem pay7_eq (v7 : Vec Ideal S1x128x64x128 .f32) : k0_pay7 v7 = meanTail (k0_pay5 v7) (k0_pay3 (F := Ideal)) := rfl
theorem pay8_eq (v7 : Vec Ideal S1x128x64x128 .f32) : k0_pay8 v7 = meanTail (k0_pay5 v7) (k0_pay4 (F := Ideal)) := rfl
theorem pay1_eq (v10 : Vec Ideal S1x128x64x128 .f32) :
    k0_pay1 (k0_pay9 v10) = meanTail (k0_pay5 v10) (k0_pay3 (F := Ideal)) := rfl
theorem pay2_eq (v10 : Vec Ideal S1x128x64x128 .f32) :
    k0_pay2 (k0_pay4 (F := Ideal)) (k0_pay6 v10) = meanTail (k0_pay5 v10) (k0_pay4 (F := Ideal)) := rfl

/-- With real row sums and a real mask, entry (0, 0, p) of that row is the real number
    (∑ over the 128 columns of sum · mask) · (1 / 4096). -/
theorem meanTail_apply (s m : FVec Ideal S128x128 .f32) (sr mr : S128x128.Idx → ℝ)
    (hs : ∀ j, s j = ((sr j : ℝ) : EReal)) (hm : ∀ j, m j = ((mr j : ℝ) : EReal)) (x : S1x1x128.Idx) :
    meanTail s m x
      = ((((∑ w : Fin 128, sr (ValueIdx.ix2 (⟨(x 2).val, (x 2).isLt⟩ : Fin 128) w)
            * mr (ValueIdx.ix2 (⟨(x 2).val, (x 2).isLt⟩ : Fin 128) w)) * (1 / 4096) : ℝ)) : EReal) := by
  have h0 : (x 0).val < 1 := (x 0).isLt
  have h1 : (x 1).val < 1 := (x 1).isLt
  have h2 : (x 2).val < 128 := (x 2).isLt
  unfold meanTail
  refine (shapeCast_apply _ _ x (ValueIdx.ix1 (⟨(x 2).val, h2⟩ : Fin 128))
    (by rw [Shape.rowMajor_val_one, Shape.rowMajor_val_three]
        show (x 2).val = ((x 0).val * 1 + (x 1).val) * 128 + (x 2).val
        omega)).trans ?_
  refine (ValueIdx.mulf_apply _ _ _).trans ?_
  rw [EReal.coe_mul, coe_sum]
  congr 1
  · refine (Ideal.multiReduction_add_single _ _ reduces_S128x128_S128 _ _ _).trans ?_
    refine Finset.sum_congr rfl fun w _ => ?_
    have hw : w.val < 128 := w.isLt
    have e : reduces_S128x128_S128.lift (ValueIdx.ix1 (⟨(x 2).val, h2⟩ : Fin 128)) w
        = ValueIdx.ix2 (⟨(x 2).val, h2⟩ : Fin 128) (⟨w.val, hw⟩ : Fin 128) := by
      funext a
      match a with
      | ⟨0, _⟩ => exact Fin.ext rfl
      | ⟨1, _⟩ => exact Fin.ext rfl
    rw [e]
    refine (ValueIdx.mulf_apply _ _ _).trans ?_
    rw [hs, hm, ← EReal.coe_mul]
    rfl
  · exact ofBits_inv4096

/-- Row sums against the left mask: the sum over the left 64 × 64 quadrant of the half block, over 4096. -/
theorem tail_left (v : Vec Ideal S1x128x64x128 .f32) (vr : S1x128x64x128.Idx → ℝ)
    (hv : ∀ y, v y = ((vr y : ℝ) : EReal)) (x : S1x1x128.Idx) :
    meanTail (k0_pay5 v) (k0_pay3 (F := Ideal)) x
      = ((((∑ h : Fin 64, ∑ w : Fin 64, vr (ValueIdx.ix4 (⟨0, Nat.one_pos⟩ : Fin 1) (⟨(x 2).val, (x 2).isLt⟩ : Fin 128) h
          (⟨w.val, by have hw := w.isLt; omega⟩ : Fin 128))) / 4096 : ℝ)) : EReal) := by
  have h2 : (x 2).val < 128 := (x 2).isLt
  rw [meanTail_apply _ _ _ _ (colsum_apply v vr hv) mask_apply x]
  refine congrArg (fun t : ℝ => (t : EReal)) ?_
  refine Eq.trans ?_ (mul_one_div _ _)
  refine congrArg (fun t : ℝ => t * (1 / 4096)) ?_
  refine Eq.trans ?_ ((half_left (fun w => ∑ k : Fin 64, vr (ValueIdx.ix4 (⟨0, Nat.one_pos⟩ : Fin 1)
    (⟨(x 2).val, h2⟩ : Fin 128) k w))).trans ?_)
  · rfl
  · exact Finset.sum_comm

/-- Row sums against the right mask: the sum over the right 64 × 64 quadrant of the half block, over 4096. -/
theorem tail_right (v : Vec Ideal S1x128x64x128 .f32) (vr : S1x128x64x128.Idx → ℝ)
    (hv : ∀ y, v y = ((vr y : ℝ) : EReal)) (x : S1x1x128.Idx) :
    meanTail (k0_pay5 v) (k0_pay4 (F := Ideal)) x
      = ((((∑ h : Fin 64, ∑ w : Fin 64, vr (ValueIdx.ix4 (⟨0, Nat.one_pos⟩ : Fin 1) (⟨(x 2).val, (x 2).isLt⟩ : Fin 128) h
          (⟨64 + w.val, by have hw := w.isLt; omega⟩ : Fin 128))) / 4096 : ℝ)) : EReal) := by
  have h2 : (x 2).val < 128 := (x 2).isLt
  rw [meanTail_apply _ _ _ _ (colsum_apply v vr hv) cmask_apply x]
  refine congrArg (fun t : ℝ => (t : EReal)) ?_
  refine Eq.trans ?_ (mul_one_div _ _)
  refine congrArg (fun t : ℝ => t * (1 / 4096)) ?_
  refine Eq.trans ?_ ((half_right (fun w => ∑ k : Fin 64, vr (ValueIdx.ix4 (⟨0, Nat.one_pos⟩ : Fin 1)
    (⟨(x 2).val, h2⟩ : Fin 128) k w))).trans ?_)
  · rfl
  · exact Finset.sum_comm

/-- The four stores of the means block fill its four rows, the last store row 3, …, the first row 0; each row holds
    its own store's payload. -/
theorem canon4_row3 (P0 P1 P2 P3 : Vec Ideal S1x1x128 .f32) (x : S1x1x128.Idx) :
    View.canon [(⟨r0_5, P0⟩ : View.Piece (Elt Ideal) S1x4x128 .f32), ⟨r0_4, P1⟩, ⟨r0_3, P2⟩, ⟨r0_2, P3⟩] (r0_5.emb x) = P0 x :=
  View.canon_cons_emb r0_5 P0 _ x

theorem canon4_row2 (P0 P1 P2 P3 : Vec Ideal S1x1x128 .f32) (x : S1x1x128.Idx) :
    View.canon [(⟨r0_5, P0⟩ : View.Piece (Elt Ideal) S1x4x128 .f32), ⟨r0_4, P1⟩, ⟨r0_3, P2⟩, ⟨r0_2, P3⟩] (r0_4.emb x) = P1 x := by
  have h1 : (x 1).val < 1 := (x 1).isLt
  have n5 : r0_4.emb x ∉ r0_5.set := by
    rw [Rect.mem_set_unit]; intro hm
    have h : 3 ≤ 2 + 1 * (x 1).val := (hm (1 : Fin 3)).1
    omega
  refine (View.canon_cons_of_not_mem (⟨r0_5, P0⟩ : View.Piece (Elt Ideal) S1x4x128 .f32) _ n5).trans ?_
  exact View.canon_cons_emb r0_4 P1 _ x

theorem canon4_row1 (P0 P1 P2 P3 : Vec Ideal S1x1x128 .f32) (x : S1x1x128.Idx) :
    View.canon [(⟨r0_5, P0⟩ : View.Piece (Elt Ideal) S1x4x128 .f32), ⟨r0_4, P1⟩, ⟨r0_3, P2⟩, ⟨r0_2, P3⟩] (r0_3.emb x) = P2 x := by
  have h1 : (x 1).val < 1 := (x 1).isLt
  have n5 : r0_3.emb x ∉ r0_5.set := by
    rw [Rect.mem_set_unit]; intro hm
    have h : 3 ≤ 1 + 1 * (x 1).val := (hm (1 : Fin 3)).1
    omega
  have n4 : r0_3.emb x ∉ r0_4.set := by
    rw [Rect.mem_set_unit]; intro hm
    have h : 2 ≤ 1 + 1 * (x 1).val := (hm (1 : Fin 3)).1
    omega
  refine (View.canon_cons_of_not_mem (⟨r0_5, P0⟩ : View.Piece (Elt Ideal) S1x4x128 .f32) _ n5).trans ?_
  refine (View.canon_cons_of_not_mem (⟨r0_4, P1⟩ : View.Piece (Elt Ideal) S1x4x128 .f32) _ n4).trans ?_
  exact View.canon_cons_emb r0_3 P2 _ x

theorem canon4_row0 (P0 P1 P2 P3 : Vec Ideal S1x1x128 .f32) (x : S1x1x128.Idx) :
    View.canon [(⟨r0_5, P0⟩ : View.Piece (Elt Ideal) S1x4x128 .f32), ⟨r0_4, P1⟩, ⟨r0_3, P2⟩, ⟨r0_2, P3⟩] (r0_2.emb x) = P3 x := by
  have h1 : (x 1).val < 1 := (x 1).isLt
  have n5 : r0_2.emb x ∉ r0_5.set := by
    rw [Rect.mem_set_unit]; intro hm
    have h : 3 ≤ 0 + 1 * (x 1).val := (hm (1 : Fin 3)).1
    omega
  have n4 : r0_2.emb x ∉ r0_4.set := by
    rw [Rect.mem_set_unit]; intro hm
    have h : 2 ≤ 0 + 1 * (x 1).val := (hm (1 : Fin 3)).1
    omega
  have n3 : r0_2.emb x ∉ r0_3.set := by
    rw [Rect.mem_set_unit]; intro hm
    have h : 1 ≤ 0 + 1 * (x 1).val := (hm (1 : Fin 3)).1
    omega
  refine (View.canon_cons_of_not_mem (⟨r0_5, P0⟩ : View.Piece (Elt Ideal) S1x4x128 .f32) _ n5).trans ?_
  refine (View.canon_cons_of_not_mem (⟨r0_4, P1⟩ : View.Piece (Elt Ideal) S1x4x128 .f32) _ n4).trans ?_
  refine (View.canon_cons_of_not_mem (⟨r0_3, P2⟩ : View.Piece (Elt Ideal) S1x4x128 .f32) _ n3).trans ?_
  exact View.canon_cons_emb r0_2 P3 _ x

/-- The index (0, 0, p) of a [1, 1, 128] row. -/
def rowIdx (p : Nat) (hp : p < 128) : S1x1x128.Idx :=
  ValueIdx.ix3 (⟨0, Nat.one_pos⟩ : Fin 1) (⟨0, Nat.one_pos⟩ : Fin 1) (⟨p, hp⟩ : Fin 128)

/-- the first kernel: block entry (0, q, p) of the means block is the mean of quadrant q of channel p of the input block -/
theorem means_block (x0 : Vec Ideal S1x128x128x128 .f32) (xr : S1x128x128x128.Idx → ℝ) (hx : ∀ y, x0 y = ((xr y : ℝ) : EReal))
    (q p : Nat) (hq : q < 4) (hp : p < 128) :
    Gen.out0_1 (F := Ideal) x0 (blk3 q p hq hp)
      = (((∑ h : Fin 64, ∑ w : Fin 64, xr (blk4 p (64 * (q / 2) + h.val) (64 * (q % 2) + w.val) hp (by have := h.isLt; omega) (by have := w.isLt; omega))) / 4096 : ℝ) : EReal) := by
  unfold out0_1
  have hq4 : q = 0 ∨ q = 1 ∨ q = 2 ∨ q = 3 := by omega
  rcases hq4 with rfl | rfl | rfl | rfl
  · -- row 0: the upper half of the block against the left mask
    have e : blk3 0 p hq hp = r0_2.emb (rowIdx p hp) := by
      funext a
      match a with
      | ⟨0, _⟩ => apply Fin.ext; show 0 = 0 + 1 * 0; omega
      | ⟨1, _⟩ => apply Fin.ext; show 0 = 0 + 1 * 0; omega
      | ⟨2, _⟩ => apply Fin.ext; show p = 0 + 1 * p; omega
    refine (congrArg _ e).trans ?_
    refine (canon4_row0 _ _ _ _ _).trans ?_
    rw [pay7_eq]
    refine (tail_left _ (fun y => xr (r0_0.idx y)) (fun y => hx _) _).trans ?_
    refine congrArg (fun t : ℝ => ((t / 4096 : ℝ) : EReal)) ?_
    refine Finset.sum_congr rfl fun h _ => Finset.sum_congr rfl fun w _ => congrArg xr ?_
    have hh : h.val < 64 := h.isLt
    have hw : w.val < 64 := w.isLt
    funext a
    match a with
    | ⟨0, _⟩ => apply Fin.ext; show 0 + 1 * 0 = 0; omega
    | ⟨1, _⟩ => apply Fin.ext; show 0 + 1 * p = p; omega
    | ⟨2, _⟩ => apply Fin.ext; show 0 + 1 * h.val = 64 * (0 / 2) + h.val; omega
    | ⟨3, _⟩ => apply Fin.ext; show 0 + 1 * w.val = 64 * (0 % 2) + w.val; omega
  · -- row 1: the upper half of the block against the right mask
    have e : blk3 1 p hq hp = r0_3.emb (rowIdx p hp) := by
      funext a
      match a with
      | ⟨0, _⟩ => apply Fin.ext; show 0 = 0 + 1 * 0; omega
      | ⟨1, _⟩ => apply Fin.ext; show 1 = 1 + 1 * 0; omega
      | ⟨2, _⟩ => apply Fin.ext; show p = 0 + 1 * p; omega
    refine (congrArg _ e).trans ?_
    refine (canon4_row1 _ _ _ _ _).trans ?_
    rw [pay8_eq]
    refine (tail_right _ (fun y => xr (r0_0.idx y)) (fun y => hx _) _).trans ?_
    refine congrArg (fun t : ℝ => ((t / 4096 : ℝ) : EReal)) ?_
    refine Finset.sum_congr rfl fun h _ => Finset.sum_congr rfl fun w _ => congrArg xr ?_
    have hh : h.val < 64 := h.isLt
    have hw : w.val < 64 := w.isLt
    funext a
    match a with
    | ⟨0, _⟩ => apply Fin.ext; show 0 + 1 * 0 = 0; omega
    | ⟨1, _⟩ => apply Fin.ext; show 0 + 1 * p = p; omega
    | ⟨2, _⟩ => apply Fin.ext; show 0 + 1 * h.val = 64 * (1 / 2) + h.val; omega
    | ⟨3, _⟩ => apply Fin.ext; show 0 + 1 * (64 + w.val) = 64 * (1 % 2) + w.val; omega
  · -- row 2: the lower half of the block against the left mask
    have e : blk3 2 p hq hp = r0_4.emb (rowIdx p hp) := by
      funext a
      match a with
      | ⟨0, _⟩ => apply Fin.ext; show 0 = 0 + 1 * 0; omega
      | ⟨1, _⟩ => apply Fin.ext; show 2 = 2 + 1 * 0; omega
      | ⟨2, _⟩ => apply Fin.ext; show p = 0 + 1 * p; omega
    refine (congrArg _ e).trans ?_
    refine (canon4_row2 _ _ _ _ _).trans ?_
    rw [pay1_eq]
    refine (tail_left _ (fun y => xr (r0_1.idx y)) (fun y => hx _) _).trans ?_
    refine congrArg (fun t : ℝ => ((t / 4096 : ℝ) : EReal)) ?_
    refine Finset.sum_congr rfl fun h _ => Finset.sum_congr rfl fun w _ => congrArg xr ?_
    have hh : h.val < 64 := h.isLt
    have hw : w.val < 64 := w.isLt
    funext a
    match a with
    | ⟨0, _⟩ => apply Fin.ext; show 0 + 1 * 0 = 0; omega
    | ⟨1, _⟩ => apply Fin.ext; show 0 + 1 * p = p; omega
    | ⟨2, _⟩ => apply Fin.ext; show 64 + 1 * h.val = 64 * (2 / 2) + h.val; omega
    | ⟨3, _⟩ => apply Fin.ext; show 0 + 1 * w.val = 64 * (2 % 2) + w.val; omega
  · -- row 3: the lower half of the block against the right mask
    have e : blk3 3 p hq hp = r0_5.emb (rowIdx p hp) := by
      funext a
      match a with
      | ⟨0, _⟩ => apply Fin.ext; show 0 = 0 + 1 * 0; omega
      | ⟨1, _⟩ => apply Fin.ext; show 3 = 3 + 1 * 0; omega
      | ⟨2, _⟩ => apply Fin.ext; show p = 0 + 1 * p; omega
    refine (congrArg _ e).trans ?_
    refine (canon4_row3 _ _ _ _ _).trans ?_
    rw [pay2_eq]
    refine (tail_right _ (fun y => xr (r0_1.idx y)) (fun y => hx _) _).trans ?_
    refine congrArg (fun t : ℝ => ((t / 4096 : ℝ) : EReal)) ?_
    refine Finset.sum_congr rfl fun h _ => Finset.sum_congr rfl fun w _ => congrArg xr ?_
    have hh : h.val < 64 := h.isLt
    have hw : w.val < 64 := w.isLt
    funext a
    match a with
    | ⟨0, _⟩ => apply Fin.ext; show 0 + 1 * 0 = 0; omega
    | ⟨1, _⟩ => apply Fin.ext; show 0 + 1 * p = p; omega
    | ⟨2, _⟩ => apply Fin.ext; show 64 + 1 * h.val = 64 * (3 / 2) + h.val; omega
    | ⟨3, _⟩ => apply Fin.ext; show 0 + 1 * (64 + w.val) = 64 * (3 % 2) + w.val; omega

end Cert.KernelIdeal.Body
end
-- ==== Proof.RefIndex.lean ====
/-
  The reference program's two index-level facts, over pure terms.

  The result array is three joins of four gated quadrants: read at an index (b, c, h, w) it is the input entry there
  times the gate at row b, column 256·q + c of the gate matrix, q = 2·(h / 64) + w / 64 the quadrant of (h, w).  The
  matrix of means is the join of four 16 × 256 matrices, one per quadrant; on a finite input its entry (b, 256·q + c) is
  the mean of the 4096 entries of quadrant q of plane (b, c).
-/
import proofs.«138559_j55224689492532_2_alg».proof.Proof.RefTerms
import Idealize.ShloMosaic.Lib.ValueIdx
import Idealize.ShloMosaic.Lib.Pipeline.Value
import Idealize.ShloMosaic.Lib.ValueLayout
import Idealize.ShloMosaic.PureOps.Ideal.Laws

noncomputable section

namespace Cert.ReferenceIdeal.RefIndex

open Idealize.ShloMosaic Cert.ReferenceIdeal Cert.ReferenceIdeal.Gen Cert.ReferenceIdeal.Terms Cert.QuadGate

/-- An index of a rank-4 array from its four coordinates as numbers. -/
abbrev mk4 {n0 n1 n2 n3 : Nat} (a b c d : Nat) (ha : a < n0) (hb : b < n1) (hc : c < n2) (hd : d < n3) :
    (⟨4, ![n0, n1, n2, n3]⟩ : Shape).Idx := fun e => match e with
  | ⟨0, _⟩ => ⟨a, ha⟩
  | ⟨1, _⟩ => ⟨b, hb⟩
  | ⟨2, _⟩ => ⟨c, hc⟩
  | ⟨3, _⟩ => ⟨d, hd⟩

/-- The gates of quadrant q spread over the quadrant, read at (b, c, h, w): the gate matrix at (b, 256·q + c).  Five
    layout steps: the spreading over the 64 × 64 positions reads (b, c, 0, 0); dropping the unit quadrant axis reads
    (b, 0, c, 0, 0); the slab at quadrant q reads (b, q, c, 0, 0); the two appended unit axes read (b, q, c); and the
    (16, 4, 256) array is the 16 × 1024 matrix with column 256·q + c at (q, c). -/
theorem gateBcast_apply (q : Nat) (hq : q < 4) (h : S16x4x256x1x1.Slices ![0, q, 0, 0, 0] S16x1x256x1x1)
    (g : FVec Ideal S16x1024 .f32) (j : S16x256x64x64.Idx) (k : S16x1024.Idx)
    (hk0 : (k 0).val = (j 0).val) (hk1 : (k 1).val = 256 * q + (j 1).val) :
    gateBcast ![0, q, 0, 0, 0] h (shapeCast S16x4x256 g shapeCasts_S16x1024_S16x4x256) j = g k := by
  have h0 : (j 0).val < 16 := (j 0).isLt
  have h1 : (j 1).val < 256 := (j 1).isLt
  unfold gateBcast
  refine (broadcastInDim_apply _ _ _ j
    (fun a => match a with | ⟨0, _⟩ => ⟨(j 0).val, h0⟩ | ⟨1, _⟩ => ⟨(j 1).val, h1⟩ | ⟨2, _⟩ => ⟨0, Nat.one_pos⟩ | ⟨3, _⟩ => ⟨0, Nat.one_pos⟩)
    (fun a => match a with | ⟨0, _⟩ => rfl | ⟨1, _⟩ => rfl | ⟨2, _⟩ => rfl | ⟨3, _⟩ => rfl)).trans ?_
  refine (shapeCast_apply _ _ _
    (fun a => match a with | ⟨0, _⟩ => ⟨(j 0).val, h0⟩ | ⟨1, _⟩ => ⟨0, Nat.one_pos⟩ | ⟨2, _⟩ => ⟨(j 1).val, h1⟩ | ⟨3, _⟩ => ⟨0, Nat.one_pos⟩ | ⟨4, _⟩ => ⟨0, Nat.one_pos⟩)
    (by rw [Shape.rowMajor_val_five, Shape.rowMajor_val_four]
        show ((((j 0).val * 1 + 0) * 256 + (j 1).val) * 1 + 0) * 1 + 0 = (((j 0).val * 256 + (j 1).val) * 1 + 0) * 1 + 0
        omega)).trans ?_
  refine (extractStridedSlice_apply _ _ _ _
    (fun a => match a with | ⟨0, _⟩ => ⟨(j 0).val, h0⟩ | ⟨1, _⟩ => ⟨q, hq⟩ | ⟨2, _⟩ => ⟨(j 1).val, h1⟩ | ⟨3, _⟩ => ⟨0, Nat.one_pos⟩ | ⟨4, _⟩ => ⟨0, Nat.one_pos⟩)
    (fun a => match a with
      | ⟨0, _⟩ => by show (j 0).val = 0 + (j 0).val; omega
      | ⟨1, _⟩ => by show q = q + 0; omega
      | ⟨2, _⟩ => by show (j 1).val = 0 + (j 1).val; omega
      | ⟨3, _⟩ => by show 0 = 0 + 0; omega
      | ⟨4, _⟩ => by show 0 = 0 + 0; omega)).trans ?_
  refine (broadcastInDim_apply _ _ _ _
    (fun a => match a with | ⟨0, _⟩ => ⟨(j 0).val, h0⟩ | ⟨1, _⟩ => ⟨q, hq⟩ | ⟨2, _⟩ => ⟨(j 1).val, h1⟩)
    (fun a => match a with | ⟨0, _⟩ => rfl | ⟨1, _⟩ => rfl | ⟨2, _⟩ => rfl)).trans ?_
  refine shapeCast_apply _ _ _ k ?_
  rw [Shape.rowMajor_val_two, Shape.rowMajor_val_three, hk0, hk1]
  show (j 0).val * 1024 + (256 * q + (j 1).val) = ((j 0).val * 4 + q) * 256 + (j 1).val
  omega

/-- The gate of entry (b, c, h, w) sits in row b of the gate matrix … -/
theorem gateIdx_val0 (i : S16x256x128x128.Idx) : ((gateIdx i) 0).val = (i 0).val := rfl

/-- … and in column 256·q + c, q = 2·(h / 64) + w / 64 the quadrant of (h, w). -/
theorem gateIdx_val1 (i : S16x256x128x128.Idx) :
    ((gateIdx i) 1).val = 256 * (2 * ((i 2).val / 64) + (i 3).val / 64) + (i 1).val := rfl

/-- The four gated quadrants joined: entry i of the result is the input entry times the gate at
    (batch, 256·quadrant + channel). -/
theorem refFinal_apply (t : FVec Ideal S16x256x128x128 .f32) (g : FVec Ideal S16x1024 .f32) (i : S16x256x128x128.Idx) :
    refFinal (quad0 t) (quad1 t) (quad2 t) (quad3 t) (shapeCast S16x4x256 g shapeCasts_S16x1024_S16x4x256) i
      = t i * g (gateIdx i) := by
  have h0 : (i 0).val < 16 := (i 0).isLt
  have h1 : (i 1).val < 256 := (i 1).isLt
  have h2 : (i 2).val < 128 := (i 2).isLt
  have h3 : (i 3).val < 128 := (i 3).isLt
  unfold refFinal
  by_cases hr : (i 2).val < 64
  · -- upper half: rows 0..63
    refine (concatenate_pair_apply_left (t := S16x256x128x128) (s₁ := S16x256x64x128) (s₂ := S16x256x64x128) 2 _ _ _ i rfl (mk4 (i 0).val (i 1).val (i 2).val (i 3).val h0 h1 hr h3)
      (fun b => match b with | ⟨0, _⟩ => rfl | ⟨1, _⟩ => rfl | ⟨2, _⟩ => rfl | ⟨3, _⟩ => rfl)).trans ?_
    by_cases hc : (i 3).val < 64
    · -- left half: columns 0..63, quadrant 0
      refine (concatenate_pair_apply_left (t := S16x256x64x128) (s₁ := S16x256x64x64) (s₂ := S16x256x64x64) 3 _ _ _ _ rfl (mk4 (i 0).val (i 1).val (i 2).val (i 3).val h0 h1 hr hc)
        (fun b => match b with | ⟨0, _⟩ => rfl | ⟨1, _⟩ => rfl | ⟨2, _⟩ => rfl | ⟨3, _⟩ => rfl)).trans ?_
      refine congrArg₂ (· * ·) ?_ ?_
      · exact extractStridedSlice_apply _ _ _ _ i (fun a => match a with
          | ⟨0, _⟩ => by show (i 0).val = 0 + (i 0).val; omega
          | ⟨1, _⟩ => by show (i 1).val = 0 + (i 1).val; omega
          | ⟨2, _⟩ => by show (i 2).val = 0 + (i 2).val; omega
          | ⟨3, _⟩ => by show (i 3).val = 0 + (i 3).val; omega)
      · refine gateBcast_apply 0 (by omega) _ g _ (gateIdx i) rfl ?_
        rw [gateIdx_val1]
        show _ = 256 * 0 + (i 1).val
        omega
    · -- right half: columns 64..127, quadrant 1
      refine (concatenate_pair_apply_right (t := S16x256x64x128) (s₁ := S16x256x64x64) (s₂ := S16x256x64x64) 3 _ _ _ _ rfl rfl (mk4 (i 0).val (i 1).val (i 2).val ((i 3).val - 64) h0 h1 hr (by omega))
        (fun b => match b with
          | ⟨0, _⟩ => fun _ => rfl
          | ⟨1, _⟩ => fun _ => rfl
          | ⟨2, _⟩ => fun _ => rfl
          | ⟨3, _⟩ => fun hne => absurd rfl hne)
        (by show (i 3).val - 64 + 64 = (i 3).val; omega)).trans ?_
      refine congrArg₂ (· * ·) ?_ ?_
      · exact extractStridedSlice_apply _ _ _ _ i (fun a => match a with
          | ⟨0, _⟩ => by show (i 0).val = 0 + (i 0).val; omega
          | ⟨1, _⟩ => by show (i 1).val = 0 + (i 1).val; omega
          | ⟨2, _⟩ => by show (i 2).val = 0 + (i 2).val; omega
          | ⟨3, _⟩ => by show (i 3).val = 64 + ((i 3).val - 64); omega)
      · refine gateBcast_apply 1 (by omega) _ g _ (gateIdx i) rfl ?_
        rw [gateIdx_val1]
        show _ = 256 * 1 + (i 1).val
        omega
  · -- lower half: rows 64..127
    refine (concatenate_pair_apply_right (t := S16x256x128x128) (s₁ := S16x256x64x128) (s₂ := S16x256x64x128) 2 _ _ _ i rfl rfl (mk4 (i 0).val (i 1).val ((i 2).val - 64) (i 3).val h0 h1 (by omega) h3)
      (fun b => match b with
        | ⟨0, _⟩ => fun _ => rfl
        | ⟨1, _⟩ => fun _ => rfl
        | ⟨2, _⟩ => fun hne => absurd rfl hne
        | ⟨3, _⟩ => fun _ => rfl)
      (by show (i 2).val - 64 + 64 = (i 2).val; omega)).trans ?_
    by_cases hc : (i 3).val < 64
    · -- left half: quadrant 2
      refine (concatenate_pair_apply_left (t := S16x256x64x128) (s₁ := S16x256x64x64) (s₂ := S16x256x64x64) 3 _ _ _ _ rfl (mk4 (i 0).val (i 1).val ((i 2).val - 64) (i 3).val h0 h1 (by omega) hc)
        (fun b => match b with | ⟨0, _⟩ => rfl | ⟨1, _⟩ => rfl | ⟨2, _⟩ => rfl | ⟨3, _⟩ => rfl)).trans ?_
      refine congrArg₂ (· * ·) ?_ ?_
      · exact extractStridedSlice_apply _ _ _ _ i (fun a => match a with
          | ⟨0, _⟩ => by show (i 0).val = 0 + (i 0).val; omega
          | ⟨1, _⟩ => by show (i 1).val = 0 + (i 1).val; omega
          | ⟨2, _⟩ => by show (i 2).val = 64 + ((i 2).val - 64); omega
          | ⟨3, _⟩ => by show (i 3).val = 0 + (i 3).val; omega)
      · refine gateBcast_apply 2 (by omega) _ g _ (gateIdx i) rfl ?_
        rw [gateIdx_val1]
        show _ = 256 * 2 + (i 1).val
        omega
    · -- right half: quadrant 3
      refine (concatenate_pair_apply_right (t := S16x256x64x128) (s₁ := S16x256x64x64) (s₂ := S16x256x64x64) 3 _ _ _ _ rfl rfl (mk4 (i 0).val (i 1).val ((i 2).val - 64) ((i 3).val - 64) h0 h1 (by omega) (by omega))
        (fun b => match b with
          | ⟨0, _⟩ => fun _ => rfl
          | ⟨1, _⟩ => fun _ => rfl
          | ⟨2, _⟩ => fun _ => rfl
          | ⟨3, _⟩ => fun hne => absurd rfl hne)
        (by show (i 3).val - 64 + 64 = (i 3).val; omega)).trans ?_
      refine congrArg₂ (· * ·) ?_ ?_
      · exact extractStridedSlice_apply _ _ _ _ i (fun a => match a with
          | ⟨0, _⟩ => by show (i 0).val = 0 + (i 0).val; omega
          | ⟨1, _⟩ => by show (i 1).val = 0 + (i 1).val; omega
          | ⟨2, _⟩ => by show (i 2).val = 64 + ((i 2).val - 64); omega
          | ⟨3, _⟩ => by show (i 3).val = 64 + ((i 3).val - 64); omega)
      · refine gateBcast_apply 3 (by omega) _ g _ (gateIdx i) rfl ?_
        rw [gateIdx_val1]
        show _ = 256 * 3 + (i 1).val
        omega

/-- The single-precision word 0x45800000 is the real number 4096 = 2¹². -/
theorem ofBits_4096 : Ideal.ofBits .f32 0x45800000#32 = ((4096 : ℝ) : EReal) := by
  simp [Ideal.ofBits, Ideal.ieee]
  rw [← EReal.coe_mul]
  norm_num

/-- The inclusion of the reals in the extended reals commutes with finite sums. -/
theorem coe_sum {ι : Type} (s : Finset ι) (f : ι → ℝ) : ((∑ i ∈ s, f i : ℝ) : EReal) = ∑ i ∈ s, ((f i : ℝ) : EReal) := by
  classical
  induction s using Finset.induction_on with
  | empty => simp
  | insert a s ha ih => rw [Finset.sum_insert ha, Finset.sum_insert ha, EReal.coe_add, ih]

/-- The indices of a (16, 256, 64, 64) array that drop to (b, c) when the two plane axes are summed out are the
    (b, c, h, w), h, w < 64: a sum over them is the double sum over h and w. -/
theorem sum_filter_drop (f : S16x256x64x64.Idx → EReal) (j : S16x256.Idx) (b c : Nat) (hb : b < 16) (hc : c < 256)
    (e0 : (j 0).val = b) (e1 : (j 1).val = c) :
    ∑ i ∈ Finset.univ.filter (fun i => reducesTo_S16x256x64x64_S16x256_d2_3.drop i = j), f i
      = ∑ hh : Fin 64, ∑ w : Fin 64, f (mk4 b c hh.val w.val hb hc hh.isLt w.isLt) := by
  have hd0 : ∀ i : S16x256x64x64.Idx, ((reducesTo_S16x256x64x64_S16x256_d2_3.drop i) 0).val = (i 0).val := fun i =>
    Shape.ReducesTo.drop_apply_val_of_eq reducesTo_S16x256x64x64_S16x256_d2_3 i 0 0
  have hd1 : ∀ i : S16x256x64x64.Idx, ((reducesTo_S16x256x64x64_S16x256_d2_3.drop i) 1).val = (i 1).val := fun i =>
    Shape.ReducesTo.drop_apply_val_of_eq reducesTo_S16x256x64x64_S16x256_d2_3 i 1 1
  rw [← Fintype.sum_prod_type' (f := fun (hh : Fin 64) (w : Fin 64) => f (mk4 b c hh.val w.val hb hc hh.isLt w.isLt))]
  refine Finset.sum_bij' (fun i _ => ((⟨(i 2).val, (i 2).isLt⟩ : Fin 64), (⟨(i 3).val, (i 3).isLt⟩ : Fin 64)))
    (fun p _ => mk4 b c p.1.val p.2.val hb hc p.1.isLt p.2.isLt) (fun _ _ => Finset.mem_univ _) ?_ ?_ ?_ ?_
  · intro p _
    refine Finset.mem_filter.2 ⟨Finset.mem_univ _, ?_⟩
    funext a
    match a with
    | ⟨0, _⟩ => exact Fin.ext ((hd0 _).trans e0.symm)
    | ⟨1, _⟩ => exact Fin.ext ((hd1 _).trans e1.symm)
  · intro i hi
    have hi' := (Finset.mem_filter.1 hi).2
    have g0 : (i 0).val = b := by rw [← hd0 i, hi', e0]
    have g1 : (i 1).val = c := by rw [← hd1 i, hi', e1]
    funext a
    match a with
    | ⟨0, _⟩ => exact Fin.ext g0.symm
    | ⟨1, _⟩ => exact Fin.ext g1.symm
    | ⟨2, _⟩ => rfl
    | ⟨3, _⟩ => rfl
  · intro p _
    rfl
  · intro i hi
    have hi' := (Finset.mem_filter.1 hi).2
    have g0 : (i 0).val = b := by rw [← hd0 i, hi', e0]
    have g1 : (i 1).val = c := by rw [← hd1 i, hi', e1]
    refine congrArg f ?_
    funext a
    match a with
    | ⟨0, _⟩ => exact Fin.ext g0
    | ⟨1, _⟩ => exact Fin.ext g1
    | ⟨2, _⟩ => rfl
    | ⟨3, _⟩ => rfl

/-- The double sum of 64 × 64 real numbers, taken in the extended reals and multiplied by 1/4096, is their real mean. -/
theorem coe_dsum_div (X : Fin 64 → Fin 64 → ℝ) :
    (∑ hh : Fin 64, ∑ w : Fin 64, ((X hh w : ℝ) : EReal)) * ((1 / 4096 : ℝ) : EReal)
      = (((∑ hh : Fin 64, ∑ w : Fin 64, X hh w) / 4096 : ℝ) : EReal) := by
  have s : (∑ hh : Fin 64, ∑ w : Fin 64, ((X hh w : ℝ) : EReal)) = ((∑ hh : Fin 64, ∑ w : Fin 64, X hh w : ℝ) : EReal) := by
    rw [coe_sum]
    exact Finset.sum_congr rfl fun hh _ => (coe_sum _ _).symm
  rw [s, ← EReal.coe_mul]
  refine congrArg (fun x : ℝ => (x : EReal)) ?_
  ring

/-- Two indices of the input array with equal coordinates are equal. -/
theorem tIdx_congr {b c h w b' c' h' w' : Nat} (hb : b < 16) (hc : c < 256) (hh : h < 128) (hw : w < 128)
    (hb' : b' < 16) (hc' : c' < 256) (hh' : h' < 128) (hw' : w' < 128)
    (e0 : b = b') (e1 : c = c') (e2 : h = h') (e3 : w = w') :
    tIdx b c h w hb hc hh hw = tIdx b' c' h' w' hb' hc' hh' hw' := by
  subst e0 e1 e2 e3; rfl

/-- One quadrant's means at (b, k), on a finite input: the quadrant cut at row offset r and column offset c, summed over
    its 64 × 64 positions from zero and divided by 4096, is the real mean of the entries (b, k, r + h, c + w). -/
theorem qmean_apply (r c : Nat) (hr : r ≤ 64) (hc : c ≤ 64) (h : S16x256x128x128.Slices ![0, 0, r, c] S16x256x64x64)
    (t : FVec Ideal S16x256x128x128 .f32) (hfin : ∀ i, t i = (((t i).toReal : ℝ) : EReal)) (j : S16x256.Idx)
    (b k : Nat) (hb : b < 16) (hk : k < 256) (e0 : (j 0).val = b) (e1 : (j 1).val = k) :
    qmean ![0, 0, r, c] h t j
      = (((∑ hh : Fin 64, ∑ w : Fin 64,
            (t (tIdx b k (r + hh.val) (c + w.val) hb hk (by have := hh.isLt; omega) (by have := w.isLt; omega))).toReal) / 4096 : ℝ) : EReal) := by
  show Ideal.div (Ideal.ofBits .f32 0x00000000#32
      + ∑ i ∈ Finset.univ.filter (fun i => reducesTo_S16x256x64x64_S16x256_d2_3.drop i = j),
          extractStridedSlice S16x256x64x64 ![0, 0, r, c] t h i) (Ideal.ofBits .f32 0x45800000#32) = _
  have e : ∀ hh w : Fin 64, extractStridedSlice S16x256x64x64 ![0, 0, r, c] t h (mk4 b k hh.val w.val hb hk hh.isLt w.isLt)
      = (((t (tIdx b k (r + hh.val) (c + w.val) hb hk (by have := hh.isLt; omega) (by have := w.isLt; omega))).toReal : ℝ) : EReal) := by
    intro hh w
    rw [← hfin]
    exact extractStridedSlice_apply _ _ _ _ _ (fun a => match a with
      | ⟨0, _⟩ => by show b = 0 + b; omega
      | ⟨1, _⟩ => by show k = 0 + k; omega
      | ⟨2, _⟩ => rfl
      | ⟨3, _⟩ => rfl)
  rw [Ideal.ofBits_zero_f32, zero_add, ofBits_4096, Ideal.div_coe (by norm_num),
    sum_filter_drop _ j b k hb hk e0 e1,
    Finset.sum_congr rfl (fun hh _ => Finset.sum_congr rfl (fun w _ => e hh w))]
  exact coe_dsum_div _

/-- Quadrant q's means are the columns 256·q … 256·q + 255 of the matrix of quadrant means. -/
theorem piece_eq (q : Nat) (hq : q < 4) (r c : Nat) (hr : r = 64 * (q / 2)) (hc : c = 64 * (q % 2))
    (h : S16x256x128x128.Slices ![0, 0, r, c] S16x256x64x64)
    (t : FVec Ideal S16x256x128x128 .f32) (hfin : ∀ i, t i = (((t i).toReal : ℝ) : EReal))
    (j : S16x1024.Idx) (jp : S16x256.Idx)
    (e0 : (jp 0).val = (j 0).val) (e1 : 256 * q + (jp 1).val = (j 1).val) :
    qmean ![0, 0, r, c] h t jp = meanArr t j := by
  have hb : (j 0).val < 16 := (j 0).isLt
  have hk : (j 1).val < 1024 := (j 1).isLt
  have hp : (jp 1).val < 256 := (jp 1).isLt
  rw [qmean_apply r c (by omega) (by omega) h t hfin jp (j 0).val (jp 1).val hb hp e0 rfl]
  show _ = ((quadMean (fun i => (t i).toReal) ⟨(j 0).val, (j 0).isLt⟩ ⟨(j 1).val, (j 1).isLt⟩ : ℝ) : EReal)
  unfold quadMean
  refine congrArg (fun x : ℝ => (x : EReal)) (congrArg (· / (4096 : ℝ)) ?_)
  refine Finset.sum_congr rfl fun hh _ => Finset.sum_congr rfl fun w _ => ?_
  refine congrArg (fun i => (t i).toReal) (tIdx_congr _ _ _ _ _ _ _ _ rfl ?_ ?_ ?_)
  · show (jp 1).val = (j 1).val % 256
    omega
  · show r + hh.val = 64 * ((j 1).val / 256 / 2) + hh.val
    omega
  · show c + w.val = 64 * ((j 1).val / 256 % 2) + w.val
    omega

/-- An index of a rank-2 array from its two coordinates as numbers. -/
abbrev mk2 {n0 n1 : Nat} (a b : Nat) (ha : a < n0) (hb : b < n1) : (⟨2, ![n0, n1]⟩ : Shape).Idx := fun e => match e with
  | ⟨0, _⟩ => ⟨a, ha⟩
  | ⟨1, _⟩ => ⟨b, hb⟩

/-- The four quadrants' 16 × 256 matrices of means, in the order the reference joins them. -/
abbrev meanPieces (t : FVec Ideal S16x256x128x128 .f32) : List ((s : Shape) × (s.Idx → Ideal .f32)) :=
  [⟨S16x256, qmean ![0, 0, 0, 0] slices_S16x256x128x128_S16x256x64x64_0_0_0_0 t⟩,
    ⟨S16x256, qmean ![0, 0, 0, 64] slices_S16x256x128x128_S16x256x64x64_0_0_0_64 t⟩,
    ⟨S16x256, qmean ![0, 0, 64, 0] slices_S16x256x128x128_S16x256x64x64_0_0_64_0 t⟩,
    ⟨S16x256, qmean ![0, 0, 64, 64] slices_S16x256x128x128_S16x256x64x64_0_0_64_64 t⟩]

/-- The four quadrants' means joined: on a finite input they are the matrix of quadrant means. -/
theorem refMeans_eq (t : FVec Ideal S16x256x128x128 .f32) (hfin : ∀ i, t i = (((t i).toReal : ℝ) : EReal)) :
    refMeans t = meanArr t := by
  funext j
  have hb : (j 0).val < 16 := (j 0).isLt
  have hk : (j 1).val < 1024 := (j 1).isLt
  show concatenate S16x1024 1 (meanPieces t) concatenates_S16x256_S16x256_S16x256_S16x256_S16x1024_d1 j = meanArr t j
  by_cases c0 : (j 1).val < 256
  · -- columns 0..255: quadrant 0
    refine (concatenate_apply_piece (t := S16x1024) 1 (meanPieces t) _ j 0 (by show 0 < 4; omega) S16x256 _ rfl rfl 0 rfl
      (mk2 (j 0).val (j 1).val hb c0)
      (fun b => match b with | ⟨0, _⟩ => fun _ => rfl | ⟨1, _⟩ => fun hne => absurd rfl hne)
      (by show 0 + (j 1).val = (j 1).val; omega)).trans ?_
    exact piece_eq 0 (by omega) 0 0 rfl rfl _ t hfin j _ rfl (by show 256 * 0 + (j 1).val = (j 1).val; omega)
  by_cases c1 : (j 1).val < 512
  · -- columns 256..511: quadrant 1
    refine (concatenate_apply_piece (t := S16x1024) 1 (meanPieces t) _ j 1 (by show 1 < 4; omega) S16x256 _ rfl rfl 256 rfl
      (mk2 (j 0).val ((j 1).val - 256) hb (by omega))
      (fun b => match b with | ⟨0, _⟩ => fun _ => rfl | ⟨1, _⟩ => fun hne => absurd rfl hne)
      (by show 256 + ((j 1).val - 256) = (j 1).val; omega)).trans ?_
    exact piece_eq 1 (by omega) 0 64 rfl rfl _ t hfin j _ rfl (by show 256 * 1 + ((j 1).val - 256) = (j 1).val; omega)
  by_cases c2 : (j 1).val < 768
  · -- columns 512..767: quadrant 2
    refine (concatenate_apply_piece (t := S16x1024) 1 (meanPieces t) _ j 2 (by show 2 < 4; omega) S16x256 _ rfl rfl 512 rfl
      (mk2 (j 0).val ((j 1).val - 512) hb (by omega))
      (fun b => match b with | ⟨0, _⟩ => fun _ => rfl | ⟨1, _⟩ => fun hne => absurd rfl hne)
      (by show 512 + ((j 1).val - 512) = (j 1).val; omega)).trans ?_
    exact piece_eq 2 (by omega) 64 0 rfl rfl _ t hfin j _ rfl (by show 256 * 2 + ((j 1).val - 512) = (j 1).val; omega)
  · -- columns 768..1023: quadrant 3
    refine (concatenate_apply_piece (t := S16x1024) 1 (meanPieces t) _ j 3 (by show 3 < 4; omega) S16x256 _ rfl rfl 768 rfl
      (mk2 (j 0).val ((j 1).val - 768) hb (by omega))
      (fun b => match b with | ⟨0, _⟩ => fun _ => rfl | ⟨1, _⟩ => fun hne => absurd rfl hne)
      (by show 768 + ((j 1).val - 768) = (j 1).val; omega)).trans ?_
    exact piece_eq 3 (by omega) 64 64 rfl rfl _ t hfin j _ rfl (by show 256 * 3 + ((j 1).val - 768) = (j 1).val; omega)

end Cert.ReferenceIdeal.RefIndex

end
-- ==== Proof.lean ====
/-
  The certificate's claim: the Pallas program (two launches — per-quadrant means, then a gated multiply — around two small
  dense layers on the host) and its jnp reference compute, on finite inputs and at the exact extended-real reading, one
  function of the five arguments: every entry of the input times a gate in (0, 1) computed from the four quadrant means
  of every plane.

  The parts: Spec (the function `G`, the shared dense layers `glue`, the quadrant means), KBody (what each kernel body
  leaves in a block), KRegion0 / KRegion1 (each launch's output array, from its blocks), KValue (the boundaries between
  the launches and the whole value), KRun (the run with the result named), RefRun / RefStages / RefTerms / RefIndex (the
  reference's run read back in three stages and read at an index), Finite (real entries from the precondition),
  Assemble (the five claims).
-/
import proofs.«138559_j55224689492532_2_alg».proof.Defs
import proofs.«138559_j55224689492532_2_alg».proof.Proof.Gen.Kernel
import proofs.«138559_j55224689492532_2_alg».proof.Proof.Gen.Kernel.Skeleton
import proofs.«138559_j55224689492532_2_alg».proof.Proof.Gen.Kernel.Launch
import proofs.«138559_j55224689492532_2_alg».proof.Proof.Gen.Kernel.Points
import proofs.«138559_j55224689492532_2_alg».proof.Proof.Gen.Kernel.Frame
import proofs.«138559_j55224689492532_2_alg».proof.Proof.Gen.KernelIdeal
import proofs.«138559_j55224689492532_2_alg».proof.Proof.Gen.KernelIdeal.Skeleton
import proofs.«138559_j55224689492532_2_alg».proof.Proof.Gen.KernelIdeal.Launch
import proofs.«138559_j55224689492532_2_alg».proof.Proof.Gen.KernelIdeal.Points
import proofs.«138559_j55224689492532_2_alg».proof.Proof.Gen.KernelIdeal.Frame
import proofs.«138559_j55224689492532_2_alg».proof.Proof.Gen.ReferenceIdeal
import proofs.«138559_j55224689492532_2_alg».proof.Proof.Gen.Pre_finite_inputs
import proofs.«138559_j55224689492532_2_alg».proof.Proof.Assemble
import proofs.«138559_j55224689492532_2_alg».proof.Proof.KBody
import proofs.«138559_j55224689492532_2_alg».proof.Proof.RefIndex
import Idealize.ShloMosaic.Adequacy
import Idealize.ShloMosaic.Init

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Pre_finite_inputs.Gen.facts,
    Assemble.frame_k, Assemble.frame_ki, Assemble.frame_ri, trivial,
    Assemble.algebraic
      (fun x0 xr hx q p hq hp => Cert.KernelIdeal.Body.means_block x0 xr hx q p hq hp)
      (fun x0 x1 p h w hp hh hw => Cert.KernelIdeal.Body.gated_block x0 x1 p h w hp hh hw)
      (fun t g i => Cert.ReferenceIdeal.RefIndex.refFinal_apply t g i)
      (fun t hfin => Cert.ReferenceIdeal.RefIndex.refMeans_eq t hfin)⟩

end Cert.Proof

end
